-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10x64 .f32) (main_arg6 : FVec F S10 .f32) (main_arg7 : FVec F S10x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S10x64 .f32 := Host.absf main_arg5
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S10 .f32 := Host.absf main_arg6
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x64 .f32 := Host.absf main_arg7
  let main_cst_10 : FVec F S_ .f32 := constant S_ .f32 0x7F800000#32
  let main_v30 : FVec F S10x64 .f32 := broadcastInDim S10x64 ![] bcast_S_S10x64 main_cst_10
  let main_v31 : IVec S10x64 1 := cmpf .olt main_v29 main_v30
  let main_c_11 : IVec S_ 1 := constantI S_ 1 1#1
  let main_v32 : IVec S_ 1 := (fun x v => Host.reduce IntOp.andi x v reducesTo_S10x64_S_d0_1 h_S_) main_v31 main_c_11
  let main_v33 : IVec S_ 1 := andi main_v28 main_v32
  main_v33

def fn {F : FTy → Type} [FloatOps F] (main_arg0 : FVec F S50000x64 .f32) (main_arg1 : IVec S2x1250000 32) (main_arg2 : FVec F S64x64 .f32) (main_arg3 : FVec F S64 .f32) (main_arg4 : FVec F S64x64 .f32) (main_arg5 : FVec F S10x64 .f32) (main_arg6 : FVec F S10 .f32) (main_arg7 : FVec F S10x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S50000x1 : Shape := ⟨2, ![50000, 1]⟩
abbrev S1250000x64 : Shape := ⟨2, ![1250000, 64]⟩
abbrev S1x64 : Shape := ⟨2, ![1, 64]⟩
abbrev S5000x64 : Shape := ⟨2, ![5000, 64]⟩
abbrev S5000x1 : Shape := ⟨2, ![5000, 1]⟩
abbrev S5000 : Shape := ⟨1, ![5000]⟩
abbrev S64x10 : Shape := ⟨2, ![64, 10]⟩
abbrev S1x10 : Shape := ⟨2, ![1, 10]⟩
abbrev S50000x10 : Shape := ⟨2, ![50000, 10]⟩
abbrev S5000x10 : Shape := ⟨2, ![5000, 10]⟩

abbrev nBuf : Space → Nat
  | .hbm => 63
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S10x64, .f32⟩
  | .hbm, ⟨6, _⟩ => ⟨S10, .f32⟩
  | .hbm, ⟨7, _⟩ => ⟨S10x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S50000, .f32⟩
  | .hbm, ⟨16, _⟩ => ⟨S1250000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .bf16⟩
  | .hbm, ⟨26, _⟩ => ⟨S_, .i32⟩
  | .hbm, ⟨27, _⟩ => ⟨S1250000, .i32⟩
  | .hbm, ⟨28, _⟩ => ⟨S1250000, .i1⟩
  | .hbm, ⟨29, _⟩ => ⟨S_, .i32⟩
  | .hbm, ⟨30, _⟩ => ⟨S1250000, .i32⟩
  | .hbm, ⟨31, _⟩ => ⟨S1250000, .i32⟩
  | .hbm, ⟨32, _⟩ => ⟨S1250000, .i32⟩
  | .hbm, ⟨33, _⟩ => ⟨S1250000x1, .i32⟩
  | .hbm, ⟨34, _⟩ => ⟨S1250000x64, .bf16⟩
  | .hbm, ⟨35, _⟩ => ⟨S1250000x64, .f32⟩
  | .hbm, ⟨36, _⟩ => ⟨S_, .f32⟩
  | .hbm, ⟨37, _⟩ => ⟨S50000x64, .f32⟩
  | .hbm, ⟨38, _⟩ => ⟨S1250000x1, .i32⟩
  | .hbm, ⟨39, _⟩ => ⟨S50000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S50000x64, .f32⟩
  | .hbm, ⟨44, _⟩ => ⟨S50000x64, .bf16⟩
  | .hbm, ⟨45, _⟩ => ⟨S_, .i32⟩
  | .hbm, ⟨46, _⟩ => ⟨S1250000, .i32⟩
  | .hbm, ⟨47, _⟩ => ⟨S1250000, .i1⟩
  | .hbm, ⟨48, _⟩ => ⟨S_, .i32⟩
  | .hbm, ⟨49, _⟩ => ⟨S1250000, .i32⟩
  | .hbm, ⟨50, _⟩ => ⟨S1250000, .i32⟩
  | .hbm, ⟨51, _⟩ => ⟨S1250000, .i32⟩
  | .hbm, ⟨52, _⟩ => ⟨S1250000x1, .i32⟩
  | .hbm, ⟨53, _⟩ => ⟨S1250000x64, .bf16⟩
  | .hbm, ⟨54, _⟩ => ⟨S1250000x64, .f32⟩
  | .hbm, ⟨55, _⟩ => ⟨S_, .f32⟩
  | .hbm, ⟨56, _⟩ => ⟨S50000x64, .f32⟩
  | .hbm, ⟨57, _⟩ => ⟨S1250000x1, .i32⟩
  | .hbm, ⟨58, _⟩ => ⟨S50000x64, .f32⟩
  | .hbm, ⟨59, _⟩ => ⟨S64x10, .f32⟩
  | .hbm, ⟨60, _⟩ => ⟨S64x10, .f32⟩
  | .hbm, ⟨61, _⟩ => ⟨S1x10, .f32⟩
  | .hbm, ⟨62, _⟩ => ⟨S50000x10, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x10, .f32⟩
  | .local _ .vmem, ⟨18, _⟩ => ⟨S1x10, .f32⟩
  | .local _ .vmem, ⟨19, _⟩ => ⟨S64x10, .f32⟩
  | .local _ .vmem, ⟨20, _⟩ => ⟨S5000x10, .f32⟩
  | .local _ .vmem, ⟨21, _⟩ => ⟨S5000x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  transposes_S10x64_S64x10_1_0 : S10x64.Transposes [1, 0] S64x10
  shapeCasts_S10_S1x10 : S10.ShapeCasts S1x10
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S50000_S1250000x1_S1250000_n_0_0_1_wf : ScatterDims.WF S50000 S1250000x1 S1250000 [] [0] [0] 1
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  dot_S5000x64_S64x64_S5000x64_1_0_0_1_n_n_wf : DotDims.WF S5000x64 S64x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x10.size a ≤ S50000x10.size a
  hwx1_6 : ∀ i : grid1.Coords, EltTy.bits .f32 = 32 ∨ (Rect.block (s := S50000x10) S5000x10.size (cc1_transform_6 i) (hinb1_6 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S5000x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1250000 : Shape := ⟨2, ![2, 1250000]⟩
abbrev S64x64 : Shape := ⟨2, ![64, 64]⟩
abbrev S64 : Shape := ⟨1, ![64]⟩
abbrev S10x64 : Shape := ⟨2, ![10, 64]⟩
abbrev S10 : Shape := ⟨1, ![10]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S50000 : Shape := ⟨1, ![50000]⟩
abbrev S50000x1 : Shape := ⟨2, ![50000, 1]⟩
abbrev S1x64 : Shape := ⟨2, ![1, 64]⟩
abbrev S64x10 : Shape := ⟨2, ![64, 10]⟩
abbrev S50000x10 : Shape := ⟨2, ![50000, 10]⟩
abbrev S1x10 : Shape := ⟨2, ![1, 10]⟩

abbrev nBuf : Space → Nat
  | .hbm => 116
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S10x64, .f32⟩
  | .hbm, ⟨6, _⟩ => ⟨S10, .f32⟩
  | .hbm, ⟨7, _⟩ => ⟨S10x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S50000x64, .f32⟩
  | .hbm, ⟨23, _⟩ => ⟨S1250000x1, .i32⟩
  | .hbm, ⟨24, _⟩ => ⟨S50000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S50000, .f32⟩
  | .hbm, ⟨29, _⟩ => ⟨S1250000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x64, .f32⟩
  | .hbm, ⟨36, _⟩ => ⟨S50000x64, .f32⟩
  | .hbm, ⟨37, _⟩ => ⟨S64x64, .f32⟩
  | .hbm, ⟨38, _⟩ => ⟨S50000x64, .f32⟩
  | .hbm, ⟨39, _⟩ => ⟨S1x64, .f32⟩
  | .hbm, ⟨40, _⟩ => ⟨S50000x64, .f32⟩
  | .hbm, ⟨41, _⟩ => ⟨S50000x64, .f32⟩
  | .hbm, ⟨42, _⟩ => ⟨S64x64, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S_, .f32⟩
  | .hbm, ⟨47, _⟩ => ⟨S50000, .f32⟩
  | .hbm, ⟨48, _⟩ => ⟨S50000x1, .f32⟩
  | .hbm, ⟨49, _⟩ => ⟨S50000x1, .f32⟩
  | .hbm, ⟨50, _⟩ => ⟨S_, .f32⟩
  | .hbm, ⟨51, _⟩ => ⟨S50000x1, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .f32⟩
  | .hbm, ⟨56, _⟩ => ⟨S50000x64, .f32⟩
  | .hbm, ⟨57, _⟩ => ⟨S50000x64, .f32⟩
  | .hbm, ⟨58, _⟩ => ⟨S_, .i32⟩
  | .hbm, ⟨59, _⟩ => ⟨S1250000, .i32⟩
  | .hbm, ⟨60, _⟩ => ⟨S1250000, .i1⟩
  | .hbm, ⟨61, _⟩ => ⟨S_, .i32⟩
  | .hbm, ⟨62, _⟩ => ⟨S1250000, .i32⟩
  | .hbm, ⟨63, _⟩ => ⟨S1250000, .i32⟩
  | .hbm, ⟨64, _⟩ => ⟨S1250000, .i32⟩
  | .hbm, ⟨65, _⟩ => ⟨S1250000x1, .i32⟩
  | .hbm, ⟨66, _⟩ => ⟨S1250000x64, .f32⟩
  | .hbm, ⟨67, _⟩ => ⟨S_, .f32⟩
  | .hbm, ⟨68, _⟩ => ⟨S50000x64, .f32⟩
  | .hbm, ⟨69, _⟩ => ⟨S1250000x1, .i32⟩
  | .hbm, ⟨70, _⟩ => ⟨S50000x64, .f32⟩
  | .hbm, ⟨71, _⟩ => ⟨S_, .f32⟩
  | .hbm, ⟨72, _⟩ => ⟨S1250000, .f32⟩
  | .hbm, ⟨73, _⟩ => ⟨S_, .f32⟩
  | .hbm, ⟨74, _⟩ => ⟨S50000, .f32⟩
  | .hbm, ⟨75, _⟩ => ⟨S1250000x1, .i32⟩
  | .hbm, ⟨76, _⟩ => ⟨S50000, .f32⟩
  | .hbm, ⟨77, _⟩ => ⟨S_, .f32⟩
  | .hbm, ⟨78, _⟩ => ⟨S50000, .f32⟩
  | .hbm, ⟨79, _⟩ => ⟨S50000, .f32⟩
  | .hbm, ⟨80, _⟩ => ⟨S50000x1, .f32⟩
  | .hbm, ⟨81, _⟩ => ⟨S50000x64, .f32⟩
  | .hbm, ⟨82, _⟩ => ⟨S50000x64, .f32⟩
  | .hbm, ⟨83, _⟩ => ⟨S64x10, .f32⟩
  | .hbm, ⟨84, _⟩ => ⟨S50000x10, .f32⟩
  | .hbm, ⟨85, _⟩ => ⟨S1x10, .f32⟩
  | .hbm, ⟨86, _⟩ => ⟨S50000x10, .f32⟩
  | .hbm, ⟨87, _⟩ => ⟨S50000x10, .f32⟩
  | .hbm, ⟨88, _⟩ => ⟨S64x10, .f32⟩
  | .hbm, ⟨89, _⟩ => ⟨S50000x10, .f32⟩
  | .hbm, ⟨90, _⟩ => ⟨S50000x10, .f32⟩
  | .hbm, ⟨91, _⟩ => ⟨S50000x10, .f32⟩
  | .hbm, ⟨92, _⟩ => ⟨S_, .f32⟩
  | .hbm, ⟨93, _⟩ => ⟨S50000, .f32⟩
  | .hbm, ⟨94, _⟩ => ⟨S50000x1, .f32⟩
  | .hbm, ⟨95, _⟩ => ⟨S50000x1, .f32⟩
  | .hbm, ⟨96, _⟩ => ⟨S_, .f32⟩
  | .hbm, ⟨97, _⟩ => ⟨S50000x1, .f32⟩
  | .hbm, ⟨98, _⟩ => ⟨S50000x1, .f32⟩
  | .hbm, ⟨99, _⟩ => ⟨S50000x10, .f32⟩
  | .hbm, ⟨100, _⟩ => ⟨S50000x10, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x10, .f32⟩
  | .hbm, ⟨108, _⟩ => ⟨S50000x10, .f32⟩
  | .hbm, ⟨109, _⟩ => ⟨S50000x10, .f32⟩
  | .hbm, ⟨110, _⟩ => ⟨S_, .f32⟩
  | .hbm, ⟨111, _⟩ => ⟨S50000, .f32⟩
  | .hbm, ⟨112, _⟩ => ⟨S50000x1, .f32⟩
  | .hbm, ⟨113, _⟩ => ⟨S50000x1, .f32⟩
  | .hbm, ⟨114, _⟩ => ⟨S50000x10, .f32⟩
  | .hbm, ⟨115, _⟩ => ⟨S50000x10, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v69 : Ref sig .tc := ⟨.hbm, 115, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S_S50000x1 : S_.BroadcastsInDim S50000x1 (![] : Fin 0 → Fin S50000x1.rank)
  transposes_S10x64_S64x10_1_0 : S10x64.Transposes [1, 0] S64x10
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  reducesTo_S50000x10_S50000_d1 : S50000x10.ReducesTo [1] S50000
  bcast_S50000x1_S50000x10_0_1 : S50000x1.BroadcastsInDim S50000x10 (![0, 1] : Fin 2 → Fin S50000x10.rank)
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  scatter_S50000_S1250000x1_S1250000_n_0_0_1_wf : ScatterDims.WF S50000 S1250000x1 S1250000 [] [0] [0] 1
  dot_S50000x64_S64x64_S50000x64_1_0_0_1_n_n_wf : DotDims.WF S50000x64 S64x64 S50000x64 [1] [0] [0] [1] [] []
  dot_S50000x64_S64x10_S50000x10_1_0_0_1_n_n_wf : DotDims.WF S50000x64 S64x10 S50000x10 [1] [0] [0] [1] [] []

variable [Facts₀]

def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf
def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.KRun.lean ====
/-
  The idealized kernel's run with its result array named.

  The program is four segments: host operations, the first layer's region, host operations, the second layer's
  region. The contents of every buffer at each boundary are a fold from the launch memory (host operations applied
  in order; a region's arrays at what its write-backs leave). Every weakly fair execution terminates, nothing
  faulting, in a state whose buffers hold the last boundary's contents: so the result array ends at the last
  boundary's contents of its buffer, and each argument array, which no segment writes, as launched.
-/
import proofs.«107454_j31894427140226_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch theorem's implicit arguments are found by unifying its conclusion with this one, which takes unfolding
-- plain definitions in a metavariable's type
set_option backward.isDefEq.respectTransparency.types false in
/-- Every weakly fair execution of the program terminates, nothing faulting, with the result array at the last
    boundary's contents of its buffer and every argument array as launched. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KValue

end
-- ==== Proof.Spec.lean ====
/-
  Two mean-aggregating graph-convolution layers, one node (one row) at a time, over the extended reals.

  A layer takes, for node `i`, the sum `agg i` of its in-neighbours' feature rows, the number `cnt i` of those
  neighbours floored at one, and its own row `x i`, and forms
      pre i j = Σₖ mean i k · Wl k j + Σₖ x i k · Wr k j + b j,      mean i k = agg i k / cnt i,
  then divides the row by its Euclidean norm floored at a small positive constant. The first layer clamps the result
  at zero from below; the second subtracts the logarithm of the row's sum of exponentials.

  Two arrangements of the same arithmetic are written down: one multiplies `agg` by a precomputed reciprocal
  `inv i = 1 / cnt i`, adds the bias last, and subtracts `log Σ exp (z − m) + m` in one step (`m` the row's maximum);
  the other divides by `cnt i`, adds the bias before the second product, and subtracts `m` first and the logarithm
  second. Weights are indexed (input feature, output feature); the bias of the first arrangement is a 1 × n row.
-/
import Idealize.ShloMosaic.Lib.ValueIdx
import Idealize.ShloMosaic.PureOps.Ideal.Laws

noncomputable section

open scoped BigOperators

namespace Cert.Sage

open Idealize.ShloMosaic Idealize.ShloMosaic.ValueIdx

/-- The floor under a row's norm: the single-precision number nearest 10⁻¹². -/
def eps : EReal := Ideal.ofBits .f32 0x2B8CBCCC#32

/-- The value a row maximum starts from: minus infinity. -/
def ninf : EReal := Ideal.ofBits .f32 0xFF800000#32

variable {n : ℕ}

/-- Entry `j` of node `i`'s row before normalisation, with the neighbour sum scaled by a reciprocal `inv i` and the
    bias added last. -/
def preK (agg : (⟨2, ![50000, 64]⟩ : Shape).Idx → EReal) (inv : (⟨2, ![50000, 1]⟩ : Shape).Idx → EReal)
    (x : (⟨2, ![50000, 64]⟩ : Shape).Idx → EReal) (wl wr : (⟨2, ![64, n]⟩ : Shape).Idx → EReal)
    (b : (⟨2, ![1, n]⟩ : Shape).Idx → EReal) (i : Fin 50000) (j : Fin n) : EReal :=
  ((∑ k : Fin 64, (agg (ix2 i k) * inv (ix2 i (0 : Fin 1))) * wl (ix2 k j)) + ∑ k : Fin 64, x (ix2 i k) * wr (ix2 k j))
    + b (ix2 (0 : Fin 1) j)

/-- The same entry with the neighbour sum divided by the count `cnt i` and the bias added before the second product. -/
def preR (agg : (⟨2, ![50000, 64]⟩ : Shape).Idx → EReal) (cnt : (⟨1, ![50000]⟩ : Shape).Idx → EReal)
    (x : (⟨2, ![50000, 64]⟩ : Shape).Idx → EReal) (wl wr : (⟨2, ![64, n]⟩ : Shape).Idx → EReal)
    (b : (⟨1, ![n]⟩ : Shape).Idx → EReal) (i : Fin 50000) (j : Fin n) : EReal :=
  ((∑ k : Fin 64, Ideal.div (agg (ix2 i k)) (cnt (ix1 i)) * wl (ix2 k j)) + b (ix1 j)) + ∑ k : Fin 64, x (ix2 i k) * wr (ix2 k j)

/-- A row divided by its Euclidean norm floored at `eps`. -/
def nrm (y : Fin n → EReal) (j : Fin n) : EReal :=
  Ideal.div (y j) (max (Ideal.sqrt (∑ k : Fin n, y k * y k)) eps)

/-- A row's maximum, taken from minus infinity. -/
def rowMax (z : Fin n → EReal) : EReal := (Finset.univ : Finset (Fin n)).fold max ninf z

/-- The logarithm of the softmax, subtracting `log Σ exp (z − m) + m` in one step. -/
def lsmK (z : Fin n → EReal) (j : Fin n) : EReal :=
  z j - (Ideal.log (∑ k : Fin n, Ideal.exp (z k - rowMax z)) + rowMax z)

/-- The logarithm of the softmax, subtracting the maximum `m` first and the logarithm second. -/
def lsmR (m : EReal) (z : Fin n → EReal) (j : Fin n) : EReal :=
  (z j - m) - Ideal.log (∑ k : Fin n, Ideal.exp (z k - m))

/-- First layer, first arrangement: normalise, then clamp at zero from below. -/
def layer1K (agg : (⟨2, ![50000, 64]⟩ : Shape).Idx → EReal) (inv : (⟨2, ![50000, 1]⟩ : Shape).Idx → EReal)
    (x : (⟨2, ![50000, 64]⟩ : Shape).Idx → EReal) (wl wr : (⟨2, ![64, 64]⟩ : Shape).Idx → EReal)
    (b : (⟨2, ![1, 64]⟩ : Shape).Idx → EReal) (i : Fin 50000) (j : Fin 64) : EReal :=
  max (nrm (preK agg inv x wl wr b i) j) 0

/-- Second layer, first arrangement: normalise, then the logarithm of the softmax. -/
def layer2K (agg : (⟨2, ![50000, 64]⟩ : Shape).Idx → EReal) (inv : (⟨2, ![50000, 1]⟩ : Shape).Idx → EReal)
    (x : (⟨2, ![50000, 64]⟩ : Shape).Idx → EReal) (wl wr : (⟨2, ![64, 10]⟩ : Shape).Idx → EReal)
    (b : (⟨2, ![1, 10]⟩ : Shape).Idx → EReal) (i : Fin 50000) (j : Fin 10) : EReal :=
  lsmK (nrm (preK agg inv x wl wr b i)) j

/-- The first layer's output as one array of all nodes. -/
def arr1K (agg : (⟨2, ![50000, 64]⟩ : Shape).Idx → EReal) (inv : (⟨2, ![50000, 1]⟩ : Shape).Idx → EReal)
    (x : (⟨2, ![50000, 64]⟩ : Shape).Idx → EReal) (wl wr : (⟨2, ![64, 64]⟩ : Shape).Idx → EReal)
    (b : (⟨2, ![1, 64]⟩ : Shape).Idx → EReal) : (⟨2, ![50000, 64]⟩ : Shape).Idx → EReal :=
  fun idx => layer1K agg inv x wl wr b (idx 0) (idx 1)

/-- The second layer's output as one array of all nodes. -/
def arr2K (agg : (⟨2, ![50000, 64]⟩ : Shape).Idx → EReal) (inv : (⟨2, ![50000, 1]⟩ : Shape).Idx → EReal)
    (x : (⟨2, ![50000, 64]⟩ : Shape).Idx → EReal) (wl wr : (⟨2, ![64, 10]⟩ : Shape).Idx → EReal)
    (b : (⟨2, ![1, 10]⟩ : Shape).Idx → EReal) : (⟨2, ![50000, 10]⟩ : Shape).Idx → EReal :=
  fun idx => layer2K agg inv x wl wr b (idx 0) (idx 1)

theorem arr1K_ix2 (agg : (⟨2, ![50000, 64]⟩ : Shape).Idx → EReal) (inv : (⟨2, ![50000, 1]⟩ : Shape).Idx → EReal)
    (x : (⟨2, ![50000, 64]⟩ : Shape).Idx → EReal) (wl wr : (⟨2, ![64, 64]⟩ : Shape).Idx → EReal)
    (b : (⟨2, ![1, 64]⟩ : Shape).Idx → EReal) (i : Fin 50000) (j : Fin 64) :
    arr1K agg inv x wl wr b (ix2 i j) = layer1K agg inv x wl wr b i j := rfl

theorem arr2K_ix2 (agg : (⟨2, ![50000, 64]⟩ : Shape).Idx → EReal) (inv : (⟨2, ![50000, 1]⟩ : Shape).Idx → EReal)
    (x : (⟨2, ![50000, 64]⟩ : Shape).Idx → EReal) (wl wr : (⟨2, ![64, 10]⟩ : Shape).Idx → EReal)
    (b : (⟨2, ![1, 10]⟩ : Shape).Idx → EReal) (i : Fin 50000) (j : Fin 10) :
    arr2K agg inv x wl wr b (ix2 i j) = layer2K agg inv x wl wr b i j := rfl

end Cert.Sage

end
-- ==== Proof.AlgebraConsts.lean ====
/-
  The three single-precision literals the two arrangements spell, as extended reals: the norm floor is a positive
  real, the starting value of a row maximum is minus infinity, and the count floor is one.
-/
import proofs.«107454_j31894427140226_2_alg».proof.Proof.Spec

noncomputable section

namespace Cert.Sage

open Idealize.ShloMosaic

/-- The pattern `0x2B8CBCCC` has sign bit clear and exponent field 87, so it denotes a positive real
    (namely `9223372 · 2⁻⁶³`; only its sign is used). -/
theorem eps_pos : ∃ e : ℝ, 0 < e ∧ eps = (e : EReal) := by
  simp [eps, Ideal.ofBits, Ideal.ieee, -EReal.coe_mul]

/-- The pattern `0xFF800000` has sign bit set, all exponent bits set and a zero significand: minus infinity. -/
theorem ninf_eq : ninf = ⊥ := by
  simp [ninf, Ideal.ofBits, Ideal.ieee]

/-- The pattern `0x3F800000` denotes `2²³ · 2⁻²³ = 1`. -/
theorem one_lit : Ideal.ofBits .f32 0x3F800000#32 = 1 := by
  simp [Ideal.ofBits, Ideal.ieee, -EReal.coe_mul]; norm_num

/-- Anything floored at one is at least one, hence not zero. -/
theorem max_one_ne_zero (c : EReal) : max c (Ideal.ofBits .f32 0x3F800000#32) ≠ 0 := by
  rw [one_lit]
  exact (lt_of_lt_of_le zero_lt_one (le_max_right c 1)).ne'

end Cert.Sage

end
-- ==== Proof.KInv.lean ====
/-
  The reciprocal of each node's neighbour count floored at one, as the column the idealized kernel's regions read.

  The host divides a splat of ones by the floored count, entry by entry, and reshapes the length-50000 result to a
  50000 × 1 column; its entry for node `i` is one over node `i`'s floored count.
-/
import proofs.«107454_j31894427140226_2_alg».proof.Proof.Gen.KernelIdeal
import proofs.«107454_j31894427140226_2_alg».proof.Proof.RefReadP
import proofs.«107454_j31894427140226_2_alg».proof.Proof.AlgebraConsts
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx

/-- A length-`a` array cast to an `a × 1` column reads, at `(i, u)`, the array at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The host's entrywise quotient of two arrays, at an index. -/
theorem hostDivf_ix {s : Shape} (a b : FVec Ideal s .f32) (j : s.Idx) :
    Host.divf a b j = Ideal.div (a j) (b j) := rfl

/-- The reciprocal of each node's floored neighbour count, as a column: the splat of ones over the floored count,
    reshaped. -/
def invK (x1 : (⟨S2x1250000, .i32⟩ : BufTy).Contents (Elt Ideal)) : (⟨S50000x1, .f32⟩ : BufTy).Contents (Elt Ideal) :=
  shapeCast S50000x1 (Host.divf (F := Ideal) (s := S50000) (φ := .f32) (Cert.ReferenceIdeal.ReadP.val_main_v18 (F := Ideal)) (Cert.ReferenceIdeal.ReadP.val_main_v19 (F := Ideal) x1))
    shapeCasts_S50000_S50000x1

/-- The column's entry for node `i` is one over the node's floored count. -/
theorem invK_ix (x1 : (⟨S2x1250000, .i32⟩ : BufTy).Contents (Elt Ideal)) (i : Fin 50000) :
    invK x1 (ix2 i (0 : Fin 1)) = Ideal.div 1 (Cert.ReferenceIdeal.ReadP.val_main_v19 (F := Ideal) x1 (ix1 i)) := by
  unfold invK
  rw [shapeCast_a_a1_apply, hostDivf_ix, Cert.ReferenceIdeal.ReadP.val_main_v18_apply, Cert.ReferenceIdeal.ReadP.val_main_cst_3_apply, Ideal.ofBits_def,
    Cert.Sage.one_lit]

end Cert.KernelIdeal.KValue

end
-- ==== Proof.KHost.lean ====
/-
  What the idealized kernel's two regions are entered with, as functions of the launch memory.

  Before the first region the host computes, from the features `x` and the edge list: the neighbour sums (gather the
  source rows, accumulate them at the destination nodes), the reciprocal of each node's neighbour count floored at one,
  as a column, the two transposed weights and the bias as a row. Between the regions it computes the same neighbour
  sums of the first region's output and the second layer's transposed weights and bias row. The gather passes through
  a narrower float format and back, which at exact arithmetic is the identity, so the neighbour sums, the floored count
  and the transposes are the very functions the reference applies.
-/
import proofs.«107454_j31894427140226_2_alg».proof.Proof.Gen.KernelIdeal.Frame
import proofs.«107454_j31894427140226_2_alg».proof.Proof.RefReadP
import proofs.«107454_j31894427140226_2_alg».proof.Proof.KInv

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## The first region's entry contents -/

theorem V1_agg : (V1 m ρ c main_v24 : S50000x64.Idx → EReal)
    = Cert.ReferenceIdeal.ReadP.val_main_v13 (F := Ideal) (m ((c.tc : Thread nD τ).loc main_arg0)) (m ((c.tc : Thread nD τ).loc main_arg1)) := by
  show StableHlo.after hostOps0 (W0 m ρ c) (Proc.devRef .tc main_v24) = _
  after_results_simp <;> rfl

theorem V1_inv : (V1 m ρ c main_v12 : S50000x1.Idx → EReal) = invK (m ((c.tc : Thread nD τ).loc main_arg1)) := by
  show StableHlo.after hostOps0 (W0 m ρ c) (Proc.devRef .tc main_v12) = _
  after_results_simp <;> rfl

theorem V1_x : (V1 m ρ c main_arg0 : S50000x64.Idx → EReal) = (m ((c.tc : Thread nD τ).loc main_arg0)) := by
  show StableHlo.after hostOps0 (W0 m ρ c) (Proc.devRef .tc main_arg0) = _
  after_results_simp <;> rfl

theorem V1_wl : (V1 m ρ c main_v25 : S64x64.Idx → EReal) = Cert.ReferenceIdeal.ReadP.val_main_v23 (F := Ideal) (m ((c.tc : Thread nD τ).loc main_arg2)) := by
  show StableHlo.after hostOps0 (W0 m ρ c) (Proc.devRef .tc main_v25) = _
  after_results_simp <;> rfl

theorem V1_wr : (V1 m ρ c main_v26 : S64x64.Idx → EReal) = Cert.ReferenceIdeal.ReadP.val_main_v28 (F := Ideal) (m ((c.tc : Thread nD τ).loc main_arg4)) := by
  show StableHlo.after hostOps0 (W0 m ρ c) (Proc.devRef .tc main_v26) = _
  after_results_simp <;> rfl

theorem V1_b : (V1 m ρ c main_v27 : S1x64.Idx → EReal) = shapeCast S1x64 (m ((c.tc : Thread nD τ).loc main_arg3)) shapeCasts_S64_S1x64 := by
  show StableHlo.after hostOps0 (W0 m ρ c) (Proc.devRef .tc main_v27) = _
  after_results_simp <;> rfl

/-- The source-index vector cut out of the edge list, as the first stretch leaves it. -/
theorem W1_src : (W1 m ρ c (Proc.devRef .tc main_v1) : S1250000.Idx → BitVec 32) = Cert.ReferenceIdeal.ReadP.val_main_v1 (F := Ideal) (m ((c.tc : Thread nD τ).loc main_arg1)) := by
  show StableHlo.after hostOps0 (W0 m ρ c) (Proc.devRef .tc main_v1) = _
  after_results_simp <;> rfl

/-- The destination-index vector cut out of the edge list, as the first stretch leaves it. -/
theorem W1_dst : (W1 m ρ c (Proc.devRef .tc main_v3) : S1250000.Idx → BitVec 32) = Cert.ReferenceIdeal.ReadP.val_main_v3 (F := Ideal) (m ((c.tc : Thread nD τ).loc main_arg1)) := by
  show StableHlo.after hostOps0 (W0 m ρ c) (Proc.devRef .tc main_v3) = _
  after_results_simp <;> rfl

theorem W1_arg5 : (W1 m ρ c (Proc.devRef .tc main_arg5) : S10x64.Idx → EReal) = (m ((c.tc : Thread nD τ).loc main_arg5)) := by
  show StableHlo.after hostOps0 (W0 m ρ c) (Proc.devRef .tc main_arg5) = _
  after_results_simp <;> rfl

theorem W1_arg6 : (W1 m ρ c (Proc.devRef .tc main_arg6) : S10.Idx → EReal) = (m ((c.tc : Thread nD τ).loc main_arg6)) := by
  show StableHlo.after hostOps0 (W0 m ρ c) (Proc.devRef .tc main_arg6) = _
  after_results_simp <;> rfl

theorem W1_arg7 : (W1 m ρ c (Proc.devRef .tc main_arg7) : S10x64.Idx → EReal) = (m ((c.tc : Thread nD τ).loc main_arg7)) := by
  show StableHlo.after hostOps0 (W0 m ρ c) (Proc.devRef .tc main_arg7) = _
  after_results_simp <;> rfl

end Cert.KernelIdeal.KValue

end
-- ==== Proof.KHost2.lean ====
/-
  What the idealized kernel's second region is entered with.

  Between the regions the host gathers and accumulates the first region's output array over the same edge list,
  and transposes the second layer's weights and reshapes its bias to a row. The first region writes only its own
  output array, so the index vectors, the reciprocal-count column and the second layer's arguments are still what the
  first stretch of host operations left.
-/
import proofs.«107454_j31894427140226_2_alg».proof.Proof.KHost

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## What the first region leaves untouched -/

theorem W2_src : (W2 m ρ c (Proc.devRef .tc main_v1) : S1250000.Idx → BitVec 32) = Cert.ReferenceIdeal.ReadP.val_main_v1 (F := Ideal) (m ((c.tc : Thread nD τ).loc main_arg1)) :=
  (W2_of_ne m ρ c main_v1 (by decide)).trans (W1_src m ρ c)

theorem W2_dst : (W2 m ρ c (Proc.devRef .tc main_v3) : S1250000.Idx → BitVec 32) = Cert.ReferenceIdeal.ReadP.val_main_v3 (F := Ideal) (m ((c.tc : Thread nD τ).loc main_arg1)) :=
  (W2_of_ne m ρ c main_v3 (by decide)).trans (W1_dst m ρ c)

theorem W2_inv : (W2 m ρ c (Proc.devRef .tc main_v12) : S50000x1.Idx → EReal) = invK (m ((c.tc : Thread nD τ).loc main_arg1)) :=
  ((W2_arr m ρ c 1).trans (((dat0 (V1 m ρ) c).arrAt_in 1 rfl _).trans (A_eq0 (V1 m ρ) c 1))).trans (V1_inv m ρ c)

theorem W2_arg5 : (W2 m ρ c (Proc.devRef .tc main_arg5) : S10x64.Idx → EReal) = (m ((c.tc : Thread nD τ).loc main_arg5)) :=
  (W2_of_ne m ρ c main_arg5 (by decide)).trans (W1_arg5 m ρ c)

theorem W2_arg6 : (W2 m ρ c (Proc.devRef .tc main_arg6) : S10.Idx → EReal) = (m ((c.tc : Thread nD τ).loc main_arg6)) :=
  (W2_of_ne m ρ c main_arg6 (by decide)).trans (W1_arg6 m ρ c)

theorem W2_arg7 : (W2 m ρ c (Proc.devRef .tc main_arg7) : S10x64.Idx → EReal) = (m ((c.tc : Thread nD τ).loc main_arg7)) :=
  (W2_of_ne m ρ c main_arg7 (by decide)).trans (W1_arg7 m ρ c)

/-! ## The second region's entry contents -/

theorem V3_agg : (V3 m ρ c main_v40 : S50000x64.Idx → EReal)
    = Cert.ReferenceIdeal.ReadP.val_main_v13 (F := Ideal) (W2 m ρ c (Proc.devRef .tc main_v28)) (m ((c.tc : Thread nD τ).loc main_arg1)) := by
  show StableHlo.after hostOps1 (W2 m ρ c) (Proc.devRef .tc main_v40) = _
  after_results_simp
  rw [W2_src, W2_dst]
  rfl

theorem V3_inv : (V3 m ρ c main_v12 : S50000x1.Idx → EReal) = invK (m ((c.tc : Thread nD τ).loc main_arg1)) := by
  show StableHlo.after hostOps1 (W2 m ρ c) (Proc.devRef .tc main_v12) = _
  after_results_simp
  exact W2_inv m ρ c

theorem V3_x : (V3 m ρ c main_v28 : S50000x64.Idx → EReal) = W2 m ρ c (Proc.devRef .tc main_v28) := by
  show StableHlo.after hostOps1 (W2 m ρ c) (Proc.devRef .tc main_v28) = _
  after_results_simp

theorem V3_wl : (V3 m ρ c main_v41 : S64x10.Idx → EReal) = Cert.ReferenceIdeal.ReadP.val_main_v56 (F := Ideal) (m ((c.tc : Thread nD τ).loc main_arg5)) := by
  show StableHlo.after hostOps1 (W2 m ρ c) (Proc.devRef .tc main_v41) = _
  after_results_simp
  rw [W2_arg5]
  rfl

theorem V3_wr : (V3 m ρ c main_v42 : S64x10.Idx → EReal) = Cert.ReferenceIdeal.ReadP.val_main_v61 (F := Ideal) (m ((c.tc : Thread nD τ).loc main_arg7)) := by
  show StableHlo.after hostOps1 (W2 m ρ c) (Proc.devRef .tc main_v42) = _
  after_results_simp
  rw [W2_arg7]
  rfl

theorem V3_b : (V3 m ρ c main_v43 : S1x10.Idx → EReal) = shapeCast S1x10 (m ((c.tc : Thread nD τ).loc main_arg6)) shapeCasts_S10_S1x10 := by
  show StableHlo.after hostOps1 (W2 m ρ c) (Proc.devRef .tc main_v43) = _
  after_results_simp
  rw [W2_arg6]
  rfl

end Cert.KernelIdeal.KValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Region0Lay.lean ====
/-
  Layout and reduction operations of a row-normalising kernel body, read at an index.

  A column of shape [a, 1] broadcast along its unit axis, a vector of shape [a] viewed as a column [a, 1], and the
  sum of a matrix's rows along the second axis, each at explicit coordinates.
-/
import Idealize.ShloMosaic.Lib.ValueLayout
import Idealize.ShloMosaic.Lib.Pipeline.Value
import Idealize.ShloMosaic.PureOps.Ideal.Laws

noncomputable section

open scoped BigOperators

namespace Cert.KernelIdeal.Region0

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index over row `p` with column `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- A sum along the second axis of an `[a, b]` matrix reads, at row `p`, the sum of that row's entries. -/
theorem rowSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.KernelIdeal.Region0

end
-- ==== Proof.Region0Pay.lean ====
/-
  The first layer's kernel body, read at one entry of its output block.

  The body scales each row of the neighbour sums by that row's reciprocal count, multiplies by the left weights, adds
  the node's own row times the right weights and the bias row, divides the row by its Euclidean norm floored at a
  small constant, and clamps at zero from below. Read at row `p` and column `q` of the block this is the
  specification's normalised row, clamped, with every sum written over explicit coordinates.
-/
import proofs.«107454_j31894427140226_2_alg».proof.Proof.Gen.KernelIdeal.Frame
import proofs.«107454_j31894427140226_2_alg».proof.Proof.Spec
import proofs.«107454_j31894427140226_2_alg».proof.Proof.LibPlainDot
import proofs.«107454_j31894427140226_2_alg».proof.Proof.Region0Lay

noncomputable section

open scoped BigOperators

namespace Cert.KernelIdeal.Region0

open Idealize.ShloMosaic Idealize.ShloMosaic.ValueIdx
open Cert.KernelIdeal Cert.KernelIdeal.Gen Cert.Sage

/-- The dimension numbers of the body's two products are those of a plain 5000×64 by 64×64 product. -/
theorem dot_eq_plain : dot_S5000x64_S64x64_S5000x64_1_0_0_1_n_n = DotDims.plain 5000 64 64 := rfl

/-- The row of node `p` before normalisation, from the body's six operands. -/
def preB (v0 : Vec Ideal S5000x64 .f32) (v2 : Vec Ideal S5000x1 .f32) (v7 : Vec Ideal S5000x64 .f32)
    (v9 : Vec Ideal S64x64 .f32) (v12 : Vec Ideal S64x64 .f32) (v15 : Vec Ideal S1x64 .f32) (p : Fin 5000) (j : Fin 64) : EReal :=
  ((∑ k : Fin 64, (v0 (ix2 p k) * v2 (ix2 p (0 : Fin 1))) * v9 (ix2 k j)) + ∑ k : Fin 64, v7 (ix2 p k) * v12 (ix2 k j))
    + v15 (ix2 (0 : Fin 1) j)

/-- The body's value before normalisation (the two products added, plus the bias row). -/
def lin (v0 : Vec Ideal S5000x64 .f32) (v2 : Vec Ideal S5000x1 .f32) (v7 : Vec Ideal S5000x64 .f32)
    (v9 : Vec Ideal S64x64 .f32) (v12 : Vec Ideal S64x64 .f32) (v15 : Vec Ideal S1x64 .f32) : FVec Ideal S5000x64 .f32 :=
  addf (addf
      (matmul dot_S5000x64_S64x64_S5000x64_1_0_0_1_n_n none
        (truncf .bf16 (mulf (shapeCast S5000x64 v0 shapeCasts_S5000x64_S5000x64)
          (broadcastTo S5000x64 (shapeCast S5000x1 v2 shapeCasts_S5000x1_S5000x1) broadcasts_S5000x1_S5000x64)) bitsLt_bf16_f32)
        (truncf .bf16 (shapeCast S64x64 v9 shapeCasts_S64x64_S64x64) bitsLt_bf16_f32)
        (constant S5000x64 .f32 0x00000000#32))
      (matmul dot_S5000x64_S64x64_S5000x64_1_0_0_1_n_n none
        (truncf .bf16 v7 bitsLt_bf16_f32)
        (truncf .bf16 (shapeCast S64x64 v12 shapeCasts_S64x64_S64x64) bitsLt_bf16_f32)
        (constant S5000x64 .f32 0x00000000#32)))
    (broadcastTo S5000x64 (shapeCast S1x64 v15 shapeCasts_S1x64_S1x64) broadcasts_S1x64_S5000x64)

/-- That value at `(p, j)` is the row's entry `j`. -/
theorem lin_apply (v0 : Vec Ideal S5000x64 .f32) (v2 : Vec Ideal S5000x1 .f32) (v7 : Vec Ideal S5000x64 .f32)
    (v9 : Vec Ideal S64x64 .f32) (v12 : Vec Ideal S64x64 .f32) (v15 : Vec Ideal S1x64 .f32) (p : Fin 5000) (j : Fin 64) :
    lin v0 v2 v7 v9 v12 v15 (ix2 p j) = preB v0 v2 v7 v9 v12 v15 p j := by
  unfold lin preB
  rw [dot_eq_plain, shapeCast_self, shapeCast_self, shapeCast_self, shapeCast_self, shapeCast_self]
  rw [addf_apply, addf_apply]
  refine congrArg₂ (· + ·) (congrArg₂ (· + ·) ((PlainDot.matmul_zero_apply none _ _ p j).trans ?_)
    (PlainDot.matmul_zero_apply none _ _ p j)) (broadcastTo_1b_ab_apply _ _ p j)
  refine Finset.sum_congr rfl fun k _ => ?_
  show (v0 (ix2 p k) * broadcastTo S5000x64 v2 broadcasts_S5000x1_S5000x64 (ix2 p k)) * v9 (ix2 k j) = _
  rw [broadcastTo_a1_ab_apply]

/-- A square root taken entry by entry, at an index. -/
theorem sqrtv_apply {s : Shape} {φ : FTy} (x : FVec Ideal s φ) (i : s.Idx) :
    Idealize.ShloMosaic.sqrt x i = Ideal.sqrt (x i) := rfl

/-- The body's payload: `lin` of the operands, each row divided by its floored norm, clamped at zero. -/
theorem pay_eq (v0 : Vec Ideal S5000x64 .f32) (v2 : Vec Ideal S5000x1 .f32) (v7 : Vec Ideal S5000x64 .f32)
    (v9 : Vec Ideal S64x64 .f32) (v12 : Vec Ideal S64x64 .f32) (v15 : Vec Ideal S1x64 .f32) :
    k0_pay1 (F := Ideal) v0 v2 v7 v9 v12 v15
      = maximumf
          (divf (lin v0 v2 v7 v9 v12 v15)
            (broadcastTo S5000x64
              (maximumf
                (Idealize.ShloMosaic.sqrt
                  (shapeCast S5000x1
                    (multiReduction .add [1] S5000 (mulf (lin v0 v2 v7 v9 v12 v15) (lin v0 v2 v7 v9 v12 v15)) 0x00000000#32
                      reduces_S5000x64_S5000 (.inl rfl) rfl)
                    shapeCasts_S5000_S5000x1))
                (broadcast S5000x1 (Scalar.ofBits (F := Ideal) .f32 0x2B8CBCCC#32)))
              broadcasts_S5000x1_S5000x64))
          (broadcast S5000x64 (Scalar.ofBits (F := Ideal) .f32 0x00000000#32)) := rfl

/-- The payload at row `p`, column `q`: the specification's normalised row of `preB`, clamped at zero. -/
theorem pay_apply (v0 : Vec Ideal S5000x64 .f32) (v2 : Vec Ideal S5000x1 .f32) (v7 : Vec Ideal S5000x64 .f32)
    (v9 : Vec Ideal S64x64 .f32) (v12 : Vec Ideal S64x64 .f32) (v15 : Vec Ideal S1x64 .f32) (p : Fin 5000) (q : Fin 64) :
    k0_pay1 (F := Ideal) v0 v2 v7 v9 v12 v15 (ix2 p q) = max (nrm (preB v0 v2 v7 v9 v12 v15 p) q) 0 := by
  rw [pay_eq, maximumf_apply, divf_apply, broadcast_apply, broadcastTo_a1_ab_apply, maximumf_apply, broadcast_apply,
    sqrtv_apply, shapeCast_a_a1_apply, lin_apply]
  have hs : multiReduction .add [1] S5000 (mulf (lin v0 v2 v7 v9 v12 v15) (lin v0 v2 v7 v9 v12 v15)) 0x00000000#32
        reduces_S5000x64_S5000 (.inl rfl) rfl (ix1 p)
      = ∑ k : Fin 64, preB v0 v2 v7 v9 v12 v15 p k * preB v0 v2 v7 v9 v12 v15 p k :=
    (rowSum_apply _ reduces_S5000x64_S5000 (.inl rfl) rfl p).trans (Finset.sum_congr rfl fun k _ => by
      rw [mulf_apply, lin_apply])
  rw [hs]
  unfold nrm eps
  show max _ (Ideal.ofBits .f32 0x00000000#32) = _
  rw [Ideal.ofBits_zero_f32]
  rfl

/-- The zero offsets of a whole-block access. -/
theorem hz : (![0, 0] : Fin 2 → Nat) = fun _ => 0 := funext fun a => by fin_cases a <;> rfl

/-- What the body leaves in the output block, at row `p` and column `q`, from the six input blocks: the left weights
    are the fourth block, the bias row the fifth and the right weights the sixth. -/
theorem out_apply (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32) (p : Fin 5000) (q : Fin 64) :
    out0_6 (F := Ideal) x0 x1 x2 x3 x4 x5 (ix2 p q) = max (nrm (preB x0 x1 x2 x3 x5 x4 p) q) 0 := by
  unfold out0_6
  rw [View.canon_unit_zero hz]
  simp only [View.ld_unit_zero (S := S5000x64) hz, View.ld_unit_zero (S := S5000x1) hz,
    View.ld_unit_zero (S := S64x64) hz, View.ld_unit_zero (S := S1x64) hz]
  exact pay_apply x0 x1 x2 x3 x5 x4 p q

end Cert.KernelIdeal.Region0

end
-- ==== Proof.Region0Blk.lean ====
/-
  The first layer's region, from blocks to the whole array.

  The region visits ten points. At point `t` the three row-blocked inputs and the output are rows
  `5000·t … 5000·t + 4999` of their arrays and the weights and the bias row are whole arrays, so what the point
  writes back is those rows of the first layer's output as one function of the arrays; row `r` is covered by point
  `r / 5000`, so the array ends holding that function everywhere.
-/
import proofs.«107454_j31894427140226_2_alg».proof.Proof.Region0Pay
import Idealize.ShloMosaic.Lib.Pipeline.Value

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

/-- The printed index maps, decided over the grid: the row-blocked windows sit at block row `t`, the whole-array
    windows at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The number of points. -/
theorem N_eq : cfg0.N = 10 := rfl

/-- Block `t` of the neighbour sums is rows `5000·t …` of the array. -/
theorem blk0_apply (c : Dev nD) (t : Fin cfg0.N) (p : Fin 5000) (k : Fin 64) (r : Fin 50000)
    (hr : r.val = t.val * 5000 + p.val) :
    iblk0 V c 0 t (ix2 p k) = V c main_v24 (ix2 r k) := by
  obtain ⟨e0, e1, -⟩ := idx_facts t
  unfold iblk0
  rw [View.read_apply]
  show V c main_v24 (((cfg0.win 0).blk t).view.emb (ix2 p k)) = V c main_v24 (ix2 r k)
  refine congrArg (V c main_v24) (funext fun a => Fin.ext ?_)
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- Block `t` of the reciprocal counts is rows `5000·t …` of the column. -/
theorem blk1_apply (c : Dev nD) (t : Fin cfg0.N) (p : Fin 5000) (r : Fin 50000)
    (hr : r.val = t.val * 5000 + p.val) :
    iblk0 V c 1 t (ix2 p (0 : Fin 1)) = V c main_v12 (ix2 r (0 : Fin 1)) := by
  obtain ⟨-, -, e0, e1, -⟩ := idx_facts t
  unfold iblk0
  rw [View.read_apply]
  show V c main_v12 (((cfg0.win 1).blk t).view.emb (ix2 p (0 : Fin 1))) = V c main_v12 (ix2 r (0 : Fin 1))
  refine congrArg (V c main_v12) (funext fun a => Fin.ext ?_)
  match a with
  | ⟨0, _⟩ => show win0_1.index t (0 : Fin 2) * 5000 + 1 * p.val = r.val; rw [e0, hr]; omega
  | ⟨1, _⟩ => show win0_1.index t (1 : Fin 2) * 1 + 1 * 0 = 0; rw [e1]

/-- Block `t` of the nodes' own features is rows `5000·t …` of the array. -/
theorem blk2_apply (c : Dev nD) (t : Fin cfg0.N) (p : Fin 5000) (k : Fin 64) (r : Fin 50000)
    (hr : r.val = t.val * 5000 + p.val) :
    iblk0 V c 2 t (ix2 p k) = V c main_arg0 (ix2 r k) := by
  obtain ⟨-, -, -, -, e0, e1, -⟩ := idx_facts t
  unfold iblk0
  rw [View.read_apply]
  show V c main_arg0 (((cfg0.win 2).blk t).view.emb (ix2 p k)) = V c main_arg0 (ix2 r k)
  refine congrArg (V c main_arg0) (funext fun a => Fin.ext ?_)
  match a with
  | ⟨0, _⟩ => show win0_2.index t (0 : Fin 2) * 5000 + 1 * p.val = r.val; rw [e0, hr]; omega
  | ⟨1, _⟩ => show win0_2.index t (1 : Fin 2) * 64 + 1 * k.val = k.val; rw [e1]; omega

/-- The left weights' one block is the whole array. -/
theorem blk3_apply (c : Dev nD) (t : Fin cfg0.N) (k j : Fin 64) :
    iblk0 V c 3 t (ix2 k j) = V c main_v25 (ix2 k j) := by
  obtain ⟨-, -, -, -, -, -, e0, e1, -⟩ := idx_facts t
  unfold iblk0
  rw [View.read_apply]
  show V c main_v25 (((cfg0.win 3).blk t).view.emb (ix2 k j)) = V c main_v25 (ix2 k j)
  refine congrArg (V c main_v25) (funext fun a => Fin.ext ?_)
  match a with
  | ⟨0, _⟩ => show win0_3.index t (0 : Fin 2) * 64 + 1 * k.val = k.val; rw [e0]; omega
  | ⟨1, _⟩ => show win0_3.index t (1 : Fin 2) * 64 + 1 * j.val = j.val; rw [e1]; omega

/-- The bias row's one block is the whole array. -/
theorem blk4_apply (c : Dev nD) (t : Fin cfg0.N) (j : Fin 64) :
    iblk0 V c 4 t (ix2 (0 : Fin 1) j) = V c main_v27 (ix2 (0 : Fin 1) j) := by
  obtain ⟨-, -, -, -, -, -, -, -, e0, e1, -⟩ := idx_facts t
  unfold iblk0
  rw [View.read_apply]
  show V c main_v27 (((cfg0.win 4).blk t).view.emb (ix2 (0 : Fin 1) j)) = V c main_v27 (ix2 (0 : Fin 1) j)
  refine congrArg (V c main_v27) (funext fun a => Fin.ext ?_)
  match a with
  | ⟨0, _⟩ => show win0_4.index t (0 : Fin 2) * 1 + 1 * 0 = 0; rw [e0]
  | ⟨1, _⟩ => show win0_4.index t (1 : Fin 2) * 64 + 1 * j.val = j.val; rw [e1]; omega

/-- The right weights' one block is the whole array. -/
theorem blk5_apply (c : Dev nD) (t : Fin cfg0.N) (k j : Fin 64) :
    iblk0 V c 5 t (ix2 k j) = V c main_v26 (ix2 k j) := by
  obtain ⟨-, -, -, -, -, -, -, -, -, -, e0, e1, -⟩ := idx_facts t
  unfold iblk0
  rw [View.read_apply]
  show V c main_v26 (((cfg0.win 5).blk t).view.emb (ix2 k j)) = V c main_v26 (ix2 k j)
  refine congrArg (V c main_v26) (funext fun a => Fin.ext ?_)
  match a with
  | ⟨0, _⟩ => show win0_5.index t (0 : Fin 2) * 64 + 1 * k.val = k.val; rw [e0]; omega
  | ⟨1, _⟩ => show win0_5.index t (1 : Fin 2) * 64 + 1 * j.val = j.val; rw [e1]; omega

/-- Row `p` of the output block is row `r` of the first layer's output when the blocks' row `p` is the arrays' row
    `r` and the weights' and bias's blocks are their arrays. -/
theorem rows_eq (A : S50000x64.Idx → EReal) (I : S50000x1.Idx → EReal) (X : S50000x64.Idx → EReal)
    (Wl Wr : S64x64.Idx → EReal) (B : S1x64.Idx → EReal)
    (x0 : Vec Ideal S5000x64 .f32) (x1 : Vec Ideal S5000x1 .f32) (x2 : Vec Ideal S5000x64 .f32)
    (x3 : Vec Ideal S64x64 .f32) (x4 : Vec Ideal S1x64 .f32) (x5 : Vec Ideal S64x64 .f32)
    (p : Fin 5000) (r : Fin 50000)
    (h0 : ∀ k : Fin 64, x0 (ix2 p k) = A (ix2 r k)) (h1 : x1 (ix2 p (0 : Fin 1)) = I (ix2 r (0 : Fin 1)))
    (h2 : ∀ k : Fin 64, x2 (ix2 p k) = X (ix2 r k)) (h3 : ∀ k j : Fin 64, x3 (ix2 k j) = Wl (ix2 k j))
    (h4 : ∀ j : Fin 64, x4 (ix2 (0 : Fin 1) j) = B (ix2 (0 : Fin 1) j))
    (h5 : ∀ k j : Fin 64, x5 (ix2 k j) = Wr (ix2 k j)) (q : Fin 64) :
    out0_6 (F := Ideal) x0 x1 x2 x3 x4 x5 (ix2 p q) = arr1K A I X Wl Wr B (ix2 r q) := by
  rw [out_apply, arr1K_ix2]
  unfold layer1K
  have e : preB x0 x1 x2 x3 x5 x4 p = preK A I X Wl Wr B r := by
    funext j
    unfold preB preK
    simp only [h0, h1, h2, h3, h4, h5]
  rw [e]

/-- What point `t` writes back is rows `5000·t …` of the first layer's output on the arrays as the region finds them. -/
theorem flushed_eq (c : Dev nD) (t : Fin cfg0.N) :
    (dat0 (F := Ideal) V c).flushed 6 t
      = ((cfg0.win 6).blk t).view.read (Elt Ideal)
          (arr1K (V c main_v24) (V c main_v12) (V c main_arg0) (V c main_v25) (V c main_v26) (V c main_v27)) := by
  show (cfg0.win 6).cut (grid0.coords t) ((dat0 V c).after 6 t) = _
  rw [after0_6]
  funext y
  obtain ⟨p, q, rfl⟩ : ∃ (p : Fin 5000) (q : Fin 64), y = ix2 p q := ⟨y 0, y 1, eq_ix2 y⟩
  have ht : t.val < 10 := t.isLt
  have hp : p.val < 5000 := p.isLt
  obtain ⟨-, -, -, -, -, -, -, -, -, -, -, -, e0, e1⟩ := idx_facts t
  have hemb : ((cfg0.win 6).blk t).view.emb (ix2 p q) = ix2 (⟨t.val * 5000 + p.val, by omega⟩ : Fin 50000) q :=
    funext fun a => Fin.ext (by
      match a with
      | ⟨0, _⟩ => show win0_6.index t (0 : Fin 2) * 5000 + 1 * p.val = t.val * 5000 + p.val; rw [e0]; omega
      | ⟨1, _⟩ => show win0_6.index t (1 : Fin 2) * 64 + 1 * q.val = q.val; rw [e1]; omega)
  show out0_6 (F := Ideal) (iblk0 V c 0 t) (iblk0 V c 1 t) (iblk0 V c 2 t) (iblk0 V c 3 t) (iblk0 V c 4 t) (iblk0 V c 5 t) (ix2 p q)
    = arr1K (V c main_v24) (V c main_v12) (V c main_arg0) (V c main_v25) (V c main_v26) (V c main_v27)
        (((cfg0.win 6).blk t).view.emb (ix2 p q))
  rw [hemb]
  exact rows_eq (V c main_v24) (V c main_v12) (V c main_arg0) (V c main_v25) (V c main_v26) (V c main_v27)
    (iblk0 V c 0 t) (iblk0 V c 1 t) (iblk0 V c 2 t) (iblk0 V c 3 t) (iblk0 V c 4 t) (iblk0 V c 5 t) p
    (⟨t.val * 5000 + p.val, by omega⟩ : Fin 50000)
    (fun k => blk0_apply V c t p k _ rfl) (blk1_apply V c t p _ rfl) (fun k => blk2_apply V c t p k _ rfl)
    (fun k j => blk3_apply V c t k j) (fun j => blk4_apply V c t j) (fun k j => blk5_apply V c t k j) q

/-- An index of the output array is in point `t`'s block iff each coordinate is in the block's range on its axis. -/
theorem mem_blk (t : Fin cfg0.N) (i : S50000x64.Idx) :
    i ∈ ((cfg0.win 6).blk t).view.set
      ↔ ∀ a : Fin 2, win0_6.index t a * S5000x64.size a ≤ (i a).val
          ∧ (i a).val < win0_6.index t a * S5000x64.size a + S5000x64.size a := by
  show i ∈ ((View.whole main_v28).slice (win0_6.rect t)).set ↔ _
  rw [View.set_slice_whole, Rect.mem_set_unit]
  exact Iff.rfl

/-- Row `r` of the output array is in the block of point `r / 5000`. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hlt : (i 0).val / 5000 < cfg0.N := by rw [N_eq]; omega
  obtain ⟨-, -, -, -, -, -, -, -, -, -, -, -, e0, e1⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    rw [e1]
    omega

/-- After the region the output array holds the first layer's output, on the arrays as the region finds them. -/
theorem final0 (c : Dev nD) :
    (Cert.KernelIdeal.Gen.dat0 (F := Ideal) V c).arrAt 6 Cert.KernelIdeal.cfg0.N
      = Cert.Sage.arr1K (V c main_v24) (V c main_v12) (V c main_arg0) (V c main_v25) (V c main_v26) (V c main_v27) :=
  (dat0 (F := Ideal) V c).arrAt_eq_of_cover 6
    (arr1K (V c main_v24) (V c main_v12) (V c main_arg0) (V c main_v25) (V c main_v26) (V c main_v27))
    (fun t _ => flushed_eq V c t) cover

end Cert.KernelIdeal.Region0

end
-- ==== Proof.Region1Pay.lean ====
/-
  The arithmetic of the second layer's kernel body, read one entry at a time over the extended reals.

  The body loads a block of 5000 nodes: the neighbour sums, the reciprocal counts, the nodes' own rows, and the two
  weight matrices and the bias row. It forms each node's row
      pre p j = Σₖ (agg p k · inv p) · Wl k j + Σₖ x p k · Wr k j + b j,
  divides the row by its Euclidean norm floored at a small constant, and subtracts from every entry the number
  log Σₖ exp (z k − m) + m, where z is the normalised row and m its maximum. Here each of these steps is read at an
  entry (p, q) of the block: the two matrix products as sums over the 64 input features, the two row sums and the
  row maximum over the 10 output features, and the broadcasts along a row as reads of the row's one value.
-/
import proofs.«107454_j31894427140226_2_alg».proof.Proof.Gen.KernelIdeal.Skeleton
import proofs.«107454_j31894427140226_2_alg».proof.Proof.Spec
import proofs.«107454_j31894427140226_2_alg».proof.Proof.LibPlainDot
import Idealize.ShloMosaic.Lib.ValueLayout

noncomputable section

open scoped BigOperators

namespace Cert.KernelIdeal.Region1

open Idealize.ShloMosaic Idealize.ShloMosaic.ValueIdx
open Cert.KernelIdeal Cert.KernelIdeal.Gen

/-! ## Layout operations that keep a reduced axis as a unit axis -/

/-- An `[a]` array cast to `[a, 1]` reads, at `(p, u)`, the operand at `p`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A node's row before normalisation -/

/-- Entry `j` of node `p`'s row before normalisation, from the block's operands. -/
def rowK (a : Vec Ideal S5000x64 .f32) (inv : Vec Ideal S5000x1 .f32) (x : Vec Ideal S5000x64 .f32)
    (wl wr : Vec Ideal S64x10 .f32) (b : Vec Ideal S1x10 .f32) (p : Fin 5000) (j : Fin 10) : EReal :=
  ((∑ k : Fin 64, (a (ix2 p k) * inv (ix2 p (0 : Fin 1))) * wl (ix2 k j)) + ∑ k : Fin 64, x (ix2 p k) * wr (ix2 k j))
    + b (ix2 (0 : Fin 1) j)

/-- The printed dimension numbers of the body's two products are those of a plain 5000×64 by 64×10 product. -/
theorem dot_eq_plain : dot_S5000x64_S64x10_S5000x10_1_0_0_1_n_n = DotDims.plain 5000 64 10 := rfl

/-- The block of rows before normalisation, as the body computes it: two products, added, plus the bias row. -/
def preVec (a : Vec Ideal S5000x64 .f32) (inv : Vec Ideal S5000x1 .f32) (x : Vec Ideal S5000x64 .f32)
    (wl wr : Vec Ideal S64x10 .f32) (b : Vec Ideal S1x10 .f32) : FVec Ideal S5000x10 .f32 :=
  addf
    (addf
      (matmul dot_S5000x64_S64x10_S5000x10_1_0_0_1_n_n none
        (truncf .bf16 (mulf (shapeCast S5000x64 a shapeCasts_S5000x64_S5000x64)
          (broadcastTo S5000x64 (shapeCast S5000x1 inv shapeCasts_S5000x1_S5000x1) broadcasts_S5000x1_S5000x64)) bitsLt_bf16_f32)
        (truncf .bf16 (shapeCast S64x10 wl shapeCasts_S64x10_S64x10) bitsLt_bf16_f32)
        (constant (F := Ideal) S5000x10 .f32 0x00000000#32))
      (matmul dot_S5000x64_S64x10_S5000x10_1_0_0_1_n_n none
        (truncf .bf16 (shapeCast S5000x64 x shapeCasts_S5000x64_S5000x64) bitsLt_bf16_f32)
        (truncf .bf16 (shapeCast S64x10 wr shapeCasts_S64x10_S64x10) bitsLt_bf16_f32)
        (constant (F := Ideal) S5000x10 .f32 0x00000000#32)))
    (broadcastTo S5000x10 (shapeCast S1x10 b shapeCasts_S1x10_S1x10) broadcasts_S1x10_S5000x10)

/-- The body's normalised block is the block of rows divided by the row norms floored at the constant. -/
theorem pay2_eq (a : Vec Ideal S5000x64 .f32) (inv : Vec Ideal S5000x1 .f32) (x : Vec Ideal S5000x64 .f32)
    (wl wr : Vec Ideal S64x10 .f32) (b : Vec Ideal S1x10 .f32) :
    k1_pay2 (F := Ideal) a inv x wl wr b
      = divf (preVec a inv x wl wr b)
          (broadcastTo S5000x10
            (maximumf
              (sqrt (shapeCast S5000x1
                (multiReduction (F := Ideal) .add [1] S5000 (mulf (preVec a inv x wl wr b) (preVec a inv x wl wr b)) 0x00000000#32
                  reduces_S5000x10_S5000 (.inl rfl) rfl) shapeCasts_S5000_S5000x1))
              (broadcast S5000x1 (Scalar.ofBits (F := Ideal) .f32 0x2B8CBCCC#32)))
            broadcasts_S5000x1_S5000x10) := rfl

/-- The block of rows before normalisation at an entry: the node's row. -/
theorem preVec_apply (a : Vec Ideal S5000x64 .f32) (inv : Vec Ideal S5000x1 .f32) (x : Vec Ideal S5000x64 .f32)
    (wl wr : Vec Ideal S64x10 .f32) (b : Vec Ideal S1x10 .f32) (p : Fin 5000) (j : Fin 10) :
    preVec a inv x wl wr b (ix2 p j) = rowK a inv x wl wr b p j := by
  unfold preVec rowK
  rw [addf_apply, addf_apply, dot_eq_plain]
  simp only [matmul]
  rw [PlainDot.matmul_zero_apply, PlainDot.matmul_zero_apply, broadcastTo_1b_ab_apply]
  simp only [truncf_apply, mulf_apply, shapeCast_self, broadcastTo_a1_ab_apply]

/-! ## Reductions along a row -/

/-- The index over row `p` with column `k` put back on the reduced axis. -/
theorem lift_row (p : Fin 5000) (k : Fin 10) : reduces_S5000x10_S5000.lift (ix1 p) k = ix2 p k := by
  funext c
  apply Fin.ext
  match c with
  | ⟨0, _⟩ => rfl
  | ⟨1, _⟩ => rfl

/-- A sum along the rows of a 5000×10 block, read at row `p`: the sum over the row's ten entries. -/
theorem rowSum_apply (v : FVec Ideal S5000x10 .f32) (hφ : FKind.Formats FTy.f32)
    (hacc : (0x00000000#32 : BitVec 32) = 0x00000000#32) (p : Fin 5000) :
    multiReduction (F := Ideal) .add [1] S5000 v 0x00000000#32 reduces_S5000x10_S5000 hφ hacc (ix1 p)
      = ∑ k : Fin 10, v (ix2 p k) := by
  refine (Ideal.multiReduction_add_single v 0x00000000#32 reduces_S5000x10_S5000 hφ hacc (ix1 p)).trans ?_
  show ∑ k : Fin 10, v (reduces_S5000x10_S5000.lift (ix1 p) k) = _
  exact Finset.sum_congr rfl fun k _ => congrArg v (lift_row p k)

/-- A maximum along the rows of a 5000×10 block, read at row `p`: the row's maximum taken from minus infinity. -/
theorem rowMax_apply (v : FVec Ideal S5000x10 .f32) (hφ : FKind.Formats FTy.f32)
    (hacc : (0xFF800000#32 : BitVec 32) = 0xFF800000#32) (p : Fin 5000) :
    multiReduction (F := Ideal) .maximumf [1] S5000 v 0xFF800000#32 reduces_S5000x10_S5000 hφ hacc (ix1 p)
      = Cert.Sage.rowMax (fun k : Fin 10 => v (ix2 p k)) := by
  refine (Ideal.multiReduction_maximumf_single v 0xFF800000#32 reduces_S5000x10_S5000 hφ hacc (ix1 p)).trans ?_
  show (Finset.univ : Finset (Fin 10)).fold max (Ideal.ofBits .f32 0xFF800000#32) (v ∘ reduces_S5000x10_S5000.lift (ix1 p))
    = (Finset.univ : Finset (Fin 10)).fold max Cert.Sage.ninf (fun k : Fin 10 => v (ix2 p k))
  have e : (v ∘ reduces_S5000x10_S5000.lift (ix1 p)) = fun k : Fin 10 => v (ix2 p k) :=
    funext fun k => congrArg v (lift_row p k)
  rw [e]
  rfl

/-! ## The normalised row -/

/-- The body's normalised block at an entry: the node's row divided by its floored norm. -/
theorem pay2_apply (a : Vec Ideal S5000x64 .f32) (inv : Vec Ideal S5000x1 .f32) (x : Vec Ideal S5000x64 .f32)
    (wl wr : Vec Ideal S64x10 .f32) (b : Vec Ideal S1x10 .f32) (p : Fin 5000) (q : Fin 10) :
    k1_pay2 (F := Ideal) a inv x wl wr b (ix2 p q) = Cert.Sage.nrm (rowK a inv x wl wr b p) q := by
  rw [pay2_eq, divf_apply, broadcastTo_a1_ab_apply, maximumf_apply, broadcast_apply, preVec_apply]
  show Ideal.div _ (max (Ideal.sqrt (shapeCast S5000x1 _ shapeCasts_S5000_S5000x1 (ix2 p (0 : Fin 1))))
    (Ideal.ofBits .f32 0x2B8CBCCC#32)) = _
  rw [shapeCast_a_a1_apply, rowSum_apply]
  simp only [mulf_apply, preVec_apply]
  rfl

/-! ## The logarithm of the row's sum of exponentials -/

/-- The column of row maxima of a 5000×10 block. -/
def maxCol (z : FVec Ideal S5000x10 .f32) : FVec Ideal S5000x1 .f32 :=
  shapeCast S5000x1
    (multiReduction (F := Ideal) .maximumf [1] S5000 z 0xFF800000#32 reduces_S5000x10_S5000 (.inl rfl) rfl)
    shapeCasts_S5000_S5000x1

/-- The column of row maxima at row `p`: that row's maximum. -/
theorem maxCol_apply (z : FVec Ideal S5000x10 .f32) (p : Fin 5000) (u : Fin 1) :
    maxCol z (ix2 p u) = Cert.Sage.rowMax (fun k : Fin 10 => z (ix2 p k)) := by
  unfold maxCol
  rw [shapeCast_a_a1_apply, rowMax_apply]

/-- The block that is subtracted from a block `z`: along each row, the logarithm of the sum of the exponentials of the
    entries less the row's maximum, plus that maximum. -/
def lseBlock (z : FVec Ideal S5000x10 .f32) : FVec Ideal S5000x10 .f32 :=
  broadcastTo S5000x10
    (addf
      (log (shapeCast S5000x1
        (multiReduction (F := Ideal) .add [1] S5000
          (exp (subf z (broadcastTo S5000x10 (maxCol z) broadcasts_S5000x1_S5000x10)))
          0x00000000#32 reduces_S5000x10_S5000 (.inl rfl) rfl)
        shapeCasts_S5000_S5000x1))
      (maxCol z))
    broadcasts_S5000x1_S5000x10

/-- The body's subtracted block is that block of its normalised block. -/
theorem pay3_eq (a : Vec Ideal S5000x64 .f32) (inv : Vec Ideal S5000x1 .f32) (x : Vec Ideal S5000x64 .f32)
    (wl wr : Vec Ideal S64x10 .f32) (b : Vec Ideal S1x10 .f32) :
    k1_pay3 (F := Ideal) a inv x wl wr b = lseBlock (k1_pay2 (F := Ideal) a inv x wl wr b) := rfl

/-- The subtracted block at an entry of row `p`. -/
theorem lseBlock_apply (z : FVec Ideal S5000x10 .f32) (p : Fin 5000) (q : Fin 10) :
    lseBlock z (ix2 p q)
      = Ideal.log (∑ k : Fin 10, Ideal.exp (z (ix2 p k) - Cert.Sage.rowMax (fun k : Fin 10 => z (ix2 p k))))
          + Cert.Sage.rowMax (fun k : Fin 10 => z (ix2 p k)) := by
  unfold lseBlock
  rw [broadcastTo_a1_ab_apply, addf_apply, maxCol_apply]
  show Ideal.log (shapeCast S5000x1 _ shapeCasts_S5000_S5000x1 (ix2 p (0 : Fin 1))) + _ = _
  rw [shapeCast_a_a1_apply, rowSum_apply]
  refine congrArg (fun s => Ideal.log s + _) (Finset.sum_congr rfl fun k _ => ?_)
  show Ideal.exp (subf z _ (ix2 p k)) = _
  rw [subf_apply, broadcastTo_a1_ab_apply, maxCol_apply]

/-! ## What the body stores -/

/-- The stored block at an entry: the logarithm of the softmax of the node's normalised row. -/
theorem store_apply (a : Vec Ideal S5000x64 .f32) (inv : Vec Ideal S5000x1 .f32) (x : Vec Ideal S5000x64 .f32)
    (wl wr : Vec Ideal S64x10 .f32) (b : Vec Ideal S1x10 .f32) (p : Fin 5000) (q : Fin 10) :
    k1_pay1 (F := Ideal) (k1_pay2 (F := Ideal) a inv x wl wr b) (k1_pay3 (F := Ideal) a inv x wl wr b) (ix2 p q)
      = Cert.Sage.lsmK (Cert.Sage.nrm (rowK a inv x wl wr b p)) q := by
  rw [pay3_eq]
  show subf _ _ (ix2 p q) = _
  rw [subf_apply, lseBlock_apply]
  simp only [pay2_apply]
  rfl

end Cert.KernelIdeal.Region1

end
-- ==== Proof.Region1Out.lean ====
/-
  What the second layer's kernel body leaves in its output block, entry by entry, and when that entry is an entry of
  the whole-array specification.

  The body stores one 5000×10 block: at (p, q) the logarithm of the softmax of node p's normalised row, at q. A block
  is a window of 5000 consecutive nodes of the arrays of all 50000 nodes, so node p of the block is some node r of
  the whole graph; when the block's rows of the neighbour sums, the reciprocal counts and the nodes' own features are
  rows r of the whole arrays and the weights and bias are the whole arrays', the stored entry is the specification's
  entry (r, q).
-/
import proofs.«107454_j31894427140226_2_alg».proof.Proof.Gen.KernelIdeal.Frame
import proofs.«107454_j31894427140226_2_alg».proof.Proof.Region1Pay

noncomputable section

open scoped BigOperators

namespace Cert.KernelIdeal.Region1

open Idealize.ShloMosaic Idealize.ShloMosaic.ValueIdx
open Cert.KernelIdeal Cert.KernelIdeal.Gen

/-- The offsets of an access at the origin. -/
theorem hz : (![0, 0] : Fin 2 → Nat) = fun _ => 0 := funext fun a => by fin_cases a <;> rfl

/-- The output block after the body, at an entry: the logarithm of the softmax of the node's normalised row. -/
theorem out_apply (x0 : Vec Ideal S5000x64 .f32) (x1 : Vec Ideal S5000x1 .f32) (x2 : Vec Ideal S5000x64 .f32)
    (x3 : Vec Ideal S64x10 .f32) (x4 : Vec Ideal S1x10 .f32) (x5 : Vec Ideal S64x10 .f32) (p : Fin 5000) (q : Fin 10) :
    out1_6 (F := Ideal) x0 x1 x2 x3 x4 x5 (ix2 p q) = Cert.Sage.lsmK (Cert.Sage.nrm (rowK x0 x1 x2 x3 x5 x4 p)) q := by
  unfold out1_6
  rw [View.canon_unit_zero hz]
  simp only [View.ld_unit_zero (S := S5000x64) hz, View.ld_unit_zero (S := S5000x1) hz,
    View.ld_unit_zero (S := S64x10) hz, View.ld_unit_zero (S := S1x10) hz]
  exact store_apply x0 x1 x2 x3 x5 x4 p q

/-- A node's row in a block is its row in the whole graph when the block's operands are the whole arrays' rows. -/
theorem rowK_eq_preK (A : S50000x64.Idx → EReal) (I : S50000x1.Idx → EReal) (X : S50000x64.Idx → EReal)
    (Wl Wr : S64x10.Idx → EReal) (B : S1x10.Idx → EReal)
    (a : Vec Ideal S5000x64 .f32) (inv : Vec Ideal S5000x1 .f32) (x : Vec Ideal S5000x64 .f32)
    (wl wr : Vec Ideal S64x10 .f32) (b : Vec Ideal S1x10 .f32) (p : Fin 5000) (r : Fin 50000)
    (ha : ∀ k : Fin 64, a (ix2 p k) = A (ix2 r k)) (hinv : inv (ix2 p (0 : Fin 1)) = I (ix2 r (0 : Fin 1)))
    (hx : ∀ k : Fin 64, x (ix2 p k) = X (ix2 r k)) (hwl : wl = Wl) (hwr : wr = Wr) (hb : b = B) :
    rowK a inv x wl wr b p = Cert.Sage.preK A I X Wl Wr B r := by
  subst hwl hwr hb
  funext j
  unfold rowK Cert.Sage.preK
  simp only [ha, hinv, hx]

/-- The output block's entry `z` is the specification's entry `i` when `z` is (p, q), `i` is (r, q), and the block's
    operands are rows `r` of the whole arrays. -/
theorem out_entry_eq (A : S50000x64.Idx → EReal) (I : S50000x1.Idx → EReal) (X : S50000x64.Idx → EReal)
    (Wl Wr : S64x10.Idx → EReal) (B : S1x10.Idx → EReal)
    (x0 : Vec Ideal S5000x64 .f32) (x1 : Vec Ideal S5000x1 .f32) (x2 : Vec Ideal S5000x64 .f32)
    (x3 : Vec Ideal S64x10 .f32) (x4 : Vec Ideal S1x10 .f32) (x5 : Vec Ideal S64x10 .f32)
    (z : S5000x10.Idx) (i : S50000x10.Idx) (p : Fin 5000) (q : Fin 10) (r : Fin 50000)
    (hz0 : (z 0).val = p.val) (hz1 : (z 1).val = q.val) (hi0 : (i 0).val = r.val) (hi1 : (i 1).val = q.val)
    (h0 : ∀ k : Fin 64, x0 (ix2 p k) = A (ix2 r k)) (h1 : x1 (ix2 p (0 : Fin 1)) = I (ix2 r (0 : Fin 1)))
    (h2 : ∀ k : Fin 64, x2 (ix2 p k) = X (ix2 r k)) (h3 : x3 = Wl) (h4 : x4 = B) (h5 : x5 = Wr) :
    out1_6 (F := Ideal) x0 x1 x2 x3 x4 x5 z = Cert.Sage.arr2K A I X Wl Wr B i := by
  obtain rfl : z = ix2 p q := funext fun a => Fin.ext (by
    match a with
    | ⟨0, _⟩ => exact hz0
    | ⟨1, _⟩ => exact hz1)
  obtain rfl : i = ix2 r q := funext fun a => Fin.ext (by
    match a with
    | ⟨0, _⟩ => exact hi0
    | ⟨1, _⟩ => exact hi1)
  rw [out_apply, Cert.Sage.arr2K_ix2, rowK_eq_preK A I X Wl Wr B x0 x1 x2 x3 x5 x4 p r h0 h1 h2 h3 h5 h4]
  rfl

end Cert.KernelIdeal.Region1

end
-- ==== Proof.Region1Final.lean ====
/-
  From the blocks the second layer's kernel writes back to the whole output array.

  The grid has ten points; point t works on nodes 5000·t … 5000·t + 4999. Its three row-blocked operands are those
  rows of the arrays of all nodes, its weights and bias are the whole arrays, and what it writes back is rows
  5000·t … 5000·t + 4999 of the whole-array specification. Node r lies in the block of point r / 5000, so the ten
  blocks cover the output array, which therefore ends holding the specification everywhere.
-/
import proofs.«107454_j31894427140226_2_alg».proof.Proof.Gen.KernelIdeal.Frame
import proofs.«107454_j31894427140226_2_alg».proof.Proof.Region1Out
import Idealize.ShloMosaic.Lib.Pipeline.Value

noncomputable section

open scoped BigOperators

namespace Cert.KernelIdeal.Region1

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The index maps over the grid -/

/-- The block index of every window at every point: the row-blocked windows are at block (t, 0), the whole-array
    windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The windows' blocks as parts of the arrays -/

/-- Row `p` of the neighbour sums' block at point `t` is row `5000 t + p` of the array. -/
theorem blk0_apply (c : Dev nD) (t : Fin cfg1.N) (p : Fin 5000) (k : Fin 64) (r : Fin 50000)
    (hr : r.val = t.val * 5000 + p.val) :
    (iblk1 (F := Ideal) V c 0 t : Vec Ideal S5000x64 .f32) (ix2 p k) = (V c main_v40 : S50000x64.Idx → EReal) (ix2 r k) := by
  obtain ⟨e0, e1, -⟩ := idx_facts t
  unfold iblk1
  show V c main_v40 (((cfg1.win 0).blk t).view.emb (ix2 p k)) = _
  refine congrArg (V c main_v40) (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

/-- Row `p` of the reciprocal counts' block at point `t` is row `5000 t + p` of the array. -/
theorem blk1_apply (c : Dev nD) (t : Fin cfg1.N) (p : Fin 5000) (u : Fin 1) (r : Fin 50000)
    (hr : r.val = t.val * 5000 + p.val) :
    (iblk1 (F := Ideal) V c 1 t : Vec Ideal S5000x1 .f32) (ix2 p u) = (V c main_v12 : S50000x1.Idx → EReal) (ix2 r u) := by
  obtain ⟨-, -, e0, e1, -⟩ := idx_facts t
  unfold iblk1
  show V c main_v12 (((cfg1.win 1).blk t).view.emb (ix2 p u)) = _
  refine congrArg (V c main_v12) (funext fun a => Fin.ext ?_)
  match a with
  | ⟨0, _⟩ => show win1_1.index t (0 : Fin 2) * 5000 + 1 * p.val = r.val; omega
  | ⟨1, _⟩ => show win1_1.index t (1 : Fin 2) * 1 + 1 * u.val = u.val; omega

/-- Row `p` of the nodes' own features' block at point `t` is row `5000 t + p` of the array. -/
theorem blk2_apply (c : Dev nD) (t : Fin cfg1.N) (p : Fin 5000) (k : Fin 64) (r : Fin 50000)
    (hr : r.val = t.val * 5000 + p.val) :
    (iblk1 (F := Ideal) V c 2 t : Vec Ideal S5000x64 .f32) (ix2 p k) = (V c main_v28 : S50000x64.Idx → EReal) (ix2 r k) := by
  obtain ⟨-, -, -, -, e0, e1, -⟩ := idx_facts t
  unfold iblk1
  show V c main_v28 (((cfg1.win 2).blk t).view.emb (ix2 p k)) = _
  refine congrArg (V c main_v28) (funext fun a => Fin.ext ?_)
  match a with
  | ⟨0, _⟩ => show win1_2.index t (0 : Fin 2) * 5000 + 1 * p.val = r.val; omega
  | ⟨1, _⟩ => show win1_2.index t (1 : Fin 2) * 64 + 1 * k.val = k.val; omega

/-- The block of the first weight matrix is the whole matrix at every point. -/
theorem blk3_eq (c : Dev nD) (t : Fin cfg1.N) :
    (iblk1 (F := Ideal) V c 3 t : Vec Ideal S64x10 .f32) = (V c main_v41 : S64x10.Idx → EReal) := by
  obtain ⟨-, -, -, -, -, -, e0, e1, -⟩ := idx_facts t
  funext y
  unfold iblk1
  show V c main_v41 (((cfg1.win 3).blk t).view.emb y) = V c main_v41 y
  refine congrArg (V c main_v41) (funext fun a => Fin.ext ?_)
  match a with
  | ⟨0, _⟩ => show win1_3.index t (0 : Fin 2) * 64 + 1 * (y 0).val = (y 0).val; omega
  | ⟨1, _⟩ => show win1_3.index t (1 : Fin 2) * 10 + 1 * (y 1).val = (y 1).val; omega

/-- The block of the bias row is the whole row at every point. -/
theorem blk4_eq (c : Dev nD) (t : Fin cfg1.N) :
    (iblk1 (F := Ideal) V c 4 t : Vec Ideal S1x10 .f32) = (V c main_v43 : S1x10.Idx → EReal) := by
  obtain ⟨-, -, -, -, -, -, -, -, e0, e1, -⟩ := idx_facts t
  funext y
  unfold iblk1
  show V c main_v43 (((cfg1.win 4).blk t).view.emb y) = V c main_v43 y
  refine congrArg (V c main_v43) (funext fun a => Fin.ext ?_)
  match a with
  | ⟨0, _⟩ => show win1_4.index t (0 : Fin 2) * 1 + 1 * (y 0).val = (y 0).val; omega
  | ⟨1, _⟩ => show win1_4.index t (1 : Fin 2) * 10 + 1 * (y 1).val = (y 1).val; omega

/-- The block of the second weight matrix is the whole matrix at every point. -/
theorem blk5_eq (c : Dev nD) (t : Fin cfg1.N) :
    (iblk1 (F := Ideal) V c 5 t : Vec Ideal S64x10 .f32) = (V c main_v42 : S64x10.Idx → EReal) := by
  obtain ⟨-, -, -, -, -, -, -, -, -, -, e0, e1, -⟩ := idx_facts t
  funext y
  unfold iblk1
  show V c main_v42 (((cfg1.win 5).blk t).view.emb y) = V c main_v42 y
  refine congrArg (V c main_v42) (funext fun a => Fin.ext ?_)
  match a with
  | ⟨0, _⟩ => show win1_5.index t (0 : Fin 2) * 64 + 1 * (y 0).val = (y 0).val; omega
  | ⟨1, _⟩ => show win1_5.index t (1 : Fin 2) * 10 + 1 * (y 1).val = (y 1).val; omega

/-! ## What a point writes back -/

/-- What point `t` writes back is block `t` of the whole-array specification of the arrays as the region finds them. -/
theorem flushed_eq (c : Dev nD) (t : Fin cfg1.N) :
    (dat1 (F := Ideal) V c).flushed 6 t
      = ((cfg1.win 6).blk t).view.read (Elt Ideal)
          (Cert.Sage.arr2K (V c main_v40) (V c main_v12) (V c main_v28) (V c main_v41) (V c main_v42) (V c main_v43)) := by
  show (cfg1.win 6).cut (grid1.coords t) ((dat1 (F := Ideal) V c).after 6 t) = _
  rw [after1_6]
  funext y
  have hN : t.val < 10 := Nat.lt_of_lt_of_eq t.isLt N_1
  have hy0 : (y 0).val < 5000 := (y 0).isLt
  have hy1 : (y 1).val < 10 := (y 1).isLt
  obtain ⟨-, -, -, -, -, -, -, -, -, -, -, -, e0, e1⟩ := idx_facts t
  show out1_6 (F := Ideal) (iblk1 V c 0 t) (iblk1 V c 1 t) (iblk1 V c 2 t) (iblk1 V c 3 t) (iblk1 V c 4 t) (iblk1 V c 5 t)
      ((cfg1.win 6).xinj (grid1.coords t) y)
    = Cert.Sage.arr2K (V c main_v40) (V c main_v12) (V c main_v28) (V c main_v41) (V c main_v42) (V c main_v43)
      (((cfg1.win 6).blk t).view.emb y)
  refine out_entry_eq (V c main_v40) (V c main_v12) (V c main_v28) (V c main_v41) (V c main_v42) (V c main_v43)
    (iblk1 V c 0 t) (iblk1 V c 1 t) (iblk1 V c 2 t) (iblk1 V c 3 t) (iblk1 V c 4 t) (iblk1 V c 5 t)
    ((cfg1.win 6).xinj (grid1.coords t) y) (((cfg1.win 6).blk t).view.emb y)
    ⟨(y 0).val, hy0⟩ ⟨(y 1).val, hy1⟩ ⟨t.val * 5000 + (y 0).val, by omega⟩
    rfl rfl ?_ ?_
    (fun k => blk0_apply V c t ⟨(y 0).val, hy0⟩ k ⟨t.val * 5000 + (y 0).val, by omega⟩ rfl)
    (blk1_apply V c t ⟨(y 0).val, hy0⟩ 0 ⟨t.val * 5000 + (y 0).val, by omega⟩ rfl)
    (fun k => blk2_apply V c t ⟨(y 0).val, hy0⟩ k ⟨t.val * 5000 + (y 0).val, by omega⟩ rfl)
    (blk3_eq V c t) (blk4_eq V c t) (blk5_eq V c t)
  · show win1_6.index t (0 : Fin 2) * 5000 + 1 * (y 0).val = t.val * 5000 + (y 0).val; omega
  · show win1_6.index t (1 : Fin 2) * 10 + 1 * (y 1).val = (y 1).val; omega

/-! ## The blocks cover the array -/

/-- An index of the output array is in point `t`'s block iff each coordinate is in the block's range on its axis. -/
theorem mem_blk (t : Fin cfg1.N) (i : S50000x10.Idx) :
    i ∈ ((cfg1.win 6).blk t).view.set ↔ ∀ a : Fin 2, win1_6.index t a * S5000x10.size a ≤ (i a).val
      ∧ (i a).val < win1_6.index t a * S5000x10.size a + S5000x10.size a := by
  show i ∈ ((View.whole main_v44).slice (win1_6.rect t)).set ↔ _
  rw [View.set_slice_whole, Rect.mem_set_unit]
  exact Iff.rfl

/-- Every entry of the output array is in the block of the point its row's number divided by 5000 names, and that
    point writes its block back. -/
theorem cover (i : S50000x10.Idx) :
    ∃ t : Fin cfg1.N, (cfg1.win 6).flush t = true ∧ i ∈ ((cfg1.win 6).blk t).view.set := by
  have hi0 : (i 0).val < 50000 := (i 0).isLt
  have hi1 : (i 1).val < 10 := (i 1).isLt
  have ht : (i 0).val / 5000 < cfg1.N := Nat.lt_of_lt_of_eq (by omega) N_1.symm
  obtain ⟨-, -, -, -, -, -, -, -, -, -, -, -, e0, e1⟩ := idx_facts ⟨(i 0).val / 5000, ht⟩
  refine ⟨⟨(i 0).val / 5000, ht⟩, flush1_6 _, ?_⟩
  rw [mem_blk]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, ht⟩ (1 : Fin 2) * 10 ≤ (i 1).val
      ∧ (i 1).val < win1_6.index ⟨(i 0).val / 5000, ht⟩ (1 : Fin 2) * 10 + 10
    rw [e1]
    omega

/-! ## The array after the region -/

/-- The region's output array ends holding the whole-array specification of the arrays as the region finds them:
    entry (i, j) is the logarithm of the softmax of node i's normalised row, at j. -/
theorem final1 (V : (c : Dev nD) → (b : Ref sig .tc) → Buf (Elt Ideal) ((c : Thread nD τ).loc b)) (c : Dev nD) :
    (Cert.KernelIdeal.Gen.dat1 (F := Ideal) V c).arrAt 6 Cert.KernelIdeal.cfg1.N
      = Cert.Sage.arr2K (V c main_v40) (V c main_v12) (V c main_v28) (V c main_v41) (V c main_v42) (V c main_v43) :=
  (dat1 (F := Ideal) V c).arrAt_eq_of_cover 6
    (Cert.Sage.arr2K (V c main_v40) (V c main_v12) (V c main_v28) (V c main_v41) (V c main_v42) (V c main_v43))
    (fun t _ => flushed_eq V c t) cover

end Cert.KernelIdeal.Region1

end
-- ==== Proof.RefL1.lean ====
/-
  The reference's first layer, entry by entry.

  Entry (i, j) of the reference's first-layer output is read off its array operations: the neighbour sum of node `i`
  divided entrywise by the node's floored neighbour count, contracted with the transposed left weight, plus the bias,
  plus the node's own row contracted with the transposed right weight (the pre-normalisation entry, in the
  arrangement that divides and adds the bias second); the row divided by its floored Euclidean norm; the result
  clamped at zero from below. The neighbour sum, the floored count and the two transposed weights stay whole arrays.
-/
import proofs.«107454_j31894427140226_2_alg».proof.Proof.RefReadP
import proofs.«107454_j31894427140226_2_alg».proof.Proof.Spec

noncomputable section

open scoped BigOperators

namespace Cert.ReferenceIdeal.RefLayer1

open Cert.ReferenceIdeal Cert.ReferenceIdeal.ReadP Idealize.ShloMosaic Idealize.ShloMosaic.ValueIdx Cert.Sage

/-- The quotient's entry (i, k): the neighbour sum's entry over node `i`'s floored count. -/
theorem mean_ix (x0 : (⟨S50000x64, .f32⟩ : BufTy).Contents (Elt Ideal)) (x1 : (⟨S2x1250000, .i32⟩ : BufTy).Contents (Elt Ideal)) (i : Fin 50000) (k : Fin 64) :
    val_main_v22 (F := Ideal) x0 x1 (ix2 i k)
      = Ideal.div (val_main_v13 (F := Ideal) x0 x1 (ix2 i k)) (val_main_v19 (F := Ideal) x1 (ix1 i)) := by
  rw [val_main_v22_apply, val_main_v21_apply, val_main_v20_apply, Ideal.hostDivf_def]
  exact congrArg (fun t => Ideal.div (val_main_v13 (F := Ideal) x0 x1 (ix2 i k)) (val_main_v19 (F := Ideal) x1 t))
    (funext fun a => Fin.ext (by match a with | ⟨0, _⟩ => rfl))

/-- The bias broadcast over the nodes, at (i, j): the bias's entry j. -/
theorem bias_ix (x3 : (⟨S64, .f32⟩ : BufTy).Contents (Elt Ideal)) (i : Fin 50000) (j : Fin 64) :
    val_main_v26 (F := Ideal) x3 (ix2 i j) = x3 (ix1 j) := by
  rw [val_main_v26_apply, val_main_v25_apply]
  exact congrArg x3 (funext fun a => Fin.ext (by match a with | ⟨0, _⟩ => rfl))

/-- The pre-normalisation entry (i, j). -/
theorem pre_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : Fin 50000) (j : Fin 64) :
    val_main_v30 (F := Ideal) x0 x1 x2 x3 x4 (ix2 i j)
      = preR (val_main_v13 (F := Ideal) x0 x1) (val_main_v19 (F := Ideal) x1) x0 (val_main_v23 (F := Ideal) x2)
          (val_main_v28 (F := Ideal) x4) x3 i j := by
  rw [val_main_v30_apply, val_main_v27_apply, val_main_v24_apply, val_main_v29_apply, bias_ix, Ideal.addf_def, Ideal.addf_def]
  unfold preR
  have el (k : Fin 64) : lidx_main_v24 (ix2 i j) k = ix2 i k :=
    funext fun a => Fin.ext (by match a with | ⟨0, _⟩ => rfl | ⟨1, _⟩ => rfl)
  have er (k : Fin 64) : ridx_main_v24 (ix2 i j) k = ix2 k j :=
    funext fun a => Fin.ext (by match a with | ⟨0, _⟩ => rfl | ⟨1, _⟩ => rfl)
  have el' (k : Fin 64) : lidx_main_v29 (ix2 i j) k = ix2 i k :=
    funext fun a => Fin.ext (by match a with | ⟨0, _⟩ => rfl | ⟨1, _⟩ => rfl)
  have er' (k : Fin 64) : ridx_main_v29 (ix2 i j) k = ix2 k j :=
    funext fun a => Fin.ext (by match a with | ⟨0, _⟩ => rfl | ⟨1, _⟩ => rfl)
  simp only [el, er, el', er', mean_ix]

/-- The sum of squares of node `i`'s row, as the reference's row reduction leaves it. -/
theorem sumsq_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : Fin 50000) :
    val_main_call0_v1 (F := Ideal) x0 x1 x2 x3 x4 (ix1 i)
      = ∑ k : Fin 64, val_main_v30 (F := Ideal) x0 x1 x2 x3 x4 (ix2 i k) * val_main_v30 (F := Ideal) x0 x1 x2 x3 x4 (ix2 i k) := by
  rw [val_main_call0_v1_apply, val_main_call0_cst_apply, Ideal.ofBits_def, Ideal.ofBits_zero_f32, zero_add]
  refine Finset.sum_congr rfl fun k _ => ?_
  rw [val_main_call0_v0_apply, Ideal.mulf_def]
  have e : idx_main_call0_v1 (ix1 i) k = ix2 i k :=
    funext fun a => Fin.ext (by match a with | ⟨0, _⟩ => rfl | ⟨1, _⟩ => rfl)
  rw [e]

/-- The normalised entry (i, j): the row's entry over the row's floored norm. -/
theorem nrm_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : Fin 50000) (j : Fin 64) :
    val_main_v35 (F := Ideal) x0 x1 x2 x3 x4 (ix2 i j)
      = nrm (fun j' : Fin 64 => val_main_v30 (F := Ideal) x0 x1 x2 x3 x4 (ix2 i j')) j := by
  rw [val_main_v35_apply, val_main_v34_apply, val_main_v33_apply, val_main_v31_apply, val_main_call0_v2_apply, val_main_v32_apply,
    val_main_cst_4_apply, Ideal.hostDivf_def, Ideal.maximumf_def, Ideal.hostUnary_sqrt_def, Ideal.ofBits_def]
  have e : idx_main_call0_v2 (idx_main_v34 (ix2 i j)) = ix1 i :=
    funext fun a => Fin.ext (by match a with | ⟨0, _⟩ => rfl)
  rw [e, sumsq_ix]
  rfl

/-- The first layer's output entry (i, j). -/
theorem out_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : Fin 50000) (j : Fin 64) :
    val_main_v36 (F := Ideal) x0 x1 x2 x3 x4 (ix2 i j)
      = max (nrm (preR (val_main_v13 (F := Ideal) x0 x1) (val_main_v19 (F := Ideal) x1) x0 (val_main_v23 (F := Ideal) x2)
          (val_main_v28 (F := Ideal) x4) x3 i) j) 0 := by
  rw [val_main_v36_apply, val_main_call1_v0_apply, val_main_call1_cst_apply, Ideal.maximumf_def, Ideal.ofBits_def,
    Ideal.ofBits_zero_f32, nrm_ix]
  have e : (fun j' : Fin 64 => val_main_v30 (F := Ideal) x0 x1 x2 x3 x4 (ix2 i j'))
      = preR (val_main_v13 (F := Ideal) x0 x1) (val_main_v19 (F := Ideal) x1) x0 (val_main_v23 (F := Ideal) x2)
          (val_main_v28 (F := Ideal) x4) x3 i := funext fun j' => pre_ix x0 x1 x2 x3 x4 i j'
  rw [e]

end Cert.ReferenceIdeal.RefLayer1

end
-- ==== Proof.RefL2.lean ====
/-
  The reference's second layer and its final log-softmax, entry by entry.

  The second layer repeats the first on the first layer's output: its neighbour sum is the same gather and
  accumulation applied to that output, its floored neighbour count is the same count. Entry (i, j) of the
  pre-normalisation array, of the normalised array, the row maximum taken from minus infinity (and once more
  against minus infinity), and the final entry — the normalised entry minus the maximum, minus the logarithm of the
  row's sum of exponentials of such differences — are read off the array operations.
-/
import proofs.«107454_j31894427140226_2_alg».proof.Proof.RefL1

noncomputable section

open scoped BigOperators

namespace Cert.ReferenceIdeal.RefLayer2

open Cert.ReferenceIdeal Cert.ReferenceIdeal.Gen Cert.ReferenceIdeal.ReadP Idealize.ShloMosaic Idealize.ShloMosaic.ValueIdx Cert.Sage

/-- The second layer's neighbour sum is the first layer's gather-and-accumulate applied to the first layer's output. -/
theorem agg2_eq (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v46 (F := Ideal) x0 x1 x2 x3 x4 = val_main_v13 (F := Ideal) (val_main_v36 (F := Ideal) x0 x1 x2 x3 x4) x1 := rfl

/-- The second layer's floored neighbour count is the first layer's. -/
theorem cnt2_eq (x1 : (⟨S2x1250000, .i32⟩ : BufTy).Contents (Elt Ideal)) : val_main_v52 (F := Ideal) x1 = val_main_v19 (F := Ideal) x1 := rfl

/-- The quotient's entry (i, k). -/
theorem mean_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (i : Fin 50000) (k : Fin 64) :
    val_main_v55 (F := Ideal) x0 x1 x2 x3 x4 (ix2 i k)
      = Ideal.div (val_main_v46 (F := Ideal) x0 x1 x2 x3 x4 (ix2 i k)) (val_main_v52 (F := Ideal) x1 (ix1 i)) := by
  rw [val_main_v55_apply, val_main_v54_apply, val_main_v53_apply, Ideal.hostDivf_def]
  exact congrArg (fun t => Ideal.div (val_main_v46 (F := Ideal) x0 x1 x2 x3 x4 (ix2 i k)) (val_main_v52 (F := Ideal) x1 t))
    (funext fun a => Fin.ext (by match a with | ⟨0, _⟩ => rfl))

/-- The bias broadcast over the nodes, at (i, j): the bias's entry j. -/
theorem bias_ix (x6 : (⟨S10, .f32⟩ : BufTy).Contents (Elt Ideal)) (i : Fin 50000) (j : Fin 10) :
    val_main_v59 (F := Ideal) x6 (ix2 i j) = x6 (ix1 j) := by
  rw [val_main_v59_apply, val_main_v58_apply]
  exact congrArg x6 (funext fun a => Fin.ext (by match a with | ⟨0, _⟩ => rfl))

/-- The pre-normalisation entry (i, j). -/
theorem pre_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S10x64, .f32⟩ : BufTy).Contents (Elt Ideal)) (x6 : (⟨S10, .f32⟩ : BufTy).Contents (Elt Ideal)) (x7 : (⟨S10x64, .f32⟩ : BufTy).Contents (Elt Ideal)) (i : Fin 50000) (j : Fin 10) :
    val_main_v63 (F := Ideal) x0 x1 x2 x3 x4 x5 x6 x7 (ix2 i j)
      = preR (val_main_v46 (F := Ideal) x0 x1 x2 x3 x4) (val_main_v52 (F := Ideal) x1) (val_main_v36 (F := Ideal) x0 x1 x2 x3 x4)
          (val_main_v56 (F := Ideal) x5) (val_main_v61 (F := Ideal) x7) x6 i j := by
  rw [val_main_v63_apply, val_main_v60_apply, val_main_v57_apply, val_main_v62_apply, bias_ix, Ideal.addf_def, Ideal.addf_def]
  unfold preR
  have el (k : Fin 64) : lidx_main_v57 (ix2 i j) k = ix2 i k :=
    funext fun a => Fin.ext (by match a with | ⟨0, _⟩ => rfl | ⟨1, _⟩ => rfl)
  have er (k : Fin 64) : ridx_main_v57 (ix2 i j) k = ix2 k j :=
    funext fun a => Fin.ext (by match a with | ⟨0, _⟩ => rfl | ⟨1, _⟩ => rfl)
  have el' (k : Fin 64) : lidx_main_v62 (ix2 i j) k = ix2 i k :=
    funext fun a => Fin.ext (by match a with | ⟨0, _⟩ => rfl | ⟨1, _⟩ => rfl)
  have er' (k : Fin 64) : ridx_main_v62 (ix2 i j) k = ix2 k j :=
    funext fun a => Fin.ext (by match a with | ⟨0, _⟩ => rfl | ⟨1, _⟩ => rfl)
  simp only [el, er, el', er', mean_ix]

/-- The sum of squares of node `i`'s row. -/
theorem sumsq_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S10x64, .f32⟩ : BufTy).Contents (Elt Ideal)) (x6 : (⟨S10, .f32⟩ : BufTy).Contents (Elt Ideal)) (x7 : (⟨S10x64, .f32⟩ : BufTy).Contents (Elt Ideal)) (i : Fin 50000) :
    val_main_call2_v1 (F := Ideal) x0 x1 x2 x3 x4 x5 x6 x7 (ix1 i)
      = ∑ k : Fin 10, val_main_v63 (F := Ideal) x0 x1 x2 x3 x4 x5 x6 x7 (ix2 i k) * val_main_v63 (F := Ideal) x0 x1 x2 x3 x4 x5 x6 x7 (ix2 i k) := by
  rw [val_main_call2_v1_apply, val_main_call2_cst_apply, Ideal.ofBits_def, Ideal.ofBits_zero_f32, zero_add]
  refine Finset.sum_congr rfl fun k _ => ?_
  rw [val_main_call2_v0_apply, Ideal.mulf_def]
  have e : idx_main_call2_v1 (ix1 i) k = ix2 i k :=
    funext fun a => Fin.ext (by match a with | ⟨0, _⟩ => rfl | ⟨1, _⟩ => rfl)
  rw [e]

/-- The normalised entry (i, j): the row's entry over the row's floored norm. -/
theorem nrm_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S10x64, .f32⟩ : BufTy).Contents (Elt Ideal)) (x6 : (⟨S10, .f32⟩ : BufTy).Contents (Elt Ideal)) (x7 : (⟨S10x64, .f32⟩ : BufTy).Contents (Elt Ideal)) (i : Fin 50000) (j : Fin 10) :
    val_main_v68 (F := Ideal) x0 x1 x2 x3 x4 x5 x6 x7 (ix2 i j)
      = nrm (fun j' : Fin 10 => val_main_v63 (F := Ideal) x0 x1 x2 x3 x4 x5 x6 x7 (ix2 i j')) j := by
  rw [val_main_v68_apply, val_main_v67_apply, val_main_v66_apply, val_main_v64_apply, val_main_call2_v2_apply, val_main_v65_apply,
    val_main_cst_11_apply, Ideal.hostDivf_def, Ideal.maximumf_def, Ideal.hostUnary_sqrt_def, Ideal.ofBits_def]
  have e : idx_main_call2_v2 (idx_main_v67 (ix2 i j)) = ix1 i :=
    funext fun a => Fin.ext (by match a with | ⟨0, _⟩ => rfl)
  rw [e, sumsq_ix]
  rfl

/-- The reduced index `i` with the column `k` put back is (i, k). -/
theorem lift_ix (h : S50000x10.Reduces [1] S50000) (i : Fin 50000) (k : Fin 10) :
    h.lift (ix1 i) k = ix2 i k := by
  funext c; apply Fin.ext
  fin_cases c <;> rfl

/-- The row maximum the log-softmax subtracts: the maximum of node `i`'s normalised row taken from minus infinity,
    and once more against minus infinity. -/
theorem max_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S10x64, .f32⟩ : BufTy).Contents (Elt Ideal)) (x6 : (⟨S10, .f32⟩ : BufTy).Contents (Elt Ideal)) (x7 : (⟨S10x64, .f32⟩ : BufTy).Contents (Elt Ideal)) (i : Fin 50000) :
    val_main_call3_v2 (F := Ideal) x0 x1 x2 x3 x4 x5 x6 x7 (ix1 i)
      = max ninf (rowMax (fun j' : Fin 10 => val_main_v68 (F := Ideal) x0 x1 x2 x3 x4 x5 x6 x7 (ix2 i j'))) := by
  rw [val_main_call3_v2_apply, val_main_call3_v1_apply, val_main_call3_cst_0_apply, Ideal.maximumf_def, Ideal.ofBits_def]
  refine congrArg (max ninf) ?_
  unfold val_main_call3_v0
  have h : S50000x10.Reduces [1] S50000 := by decide
  refine (Host.reduce_eq_fold_single (FloatOps.maximumf (F := Ideal) (φ := .f32)) (val_main_v68 (F := Ideal) x0 x1 x2 x3 x4 x5 x6 x7)
    (val_main_call3_cst (F := Ideal)) reducesTo_S50000x10_S50000_d1 h h_S_ (ix1 i)).trans ?_
  show Finset.fold max ninf (fun k : Fin 10 => val_main_v68 (F := Ideal) x0 x1 x2 x3 x4 x5 x6 x7 (h.lift (ix1 i) k)) Finset.univ
    = Finset.fold max ninf (fun k : Fin 10 => val_main_v68 (F := Ideal) x0 x1 x2 x3 x4 x5 x6 x7 (ix2 i k)) Finset.univ
  exact congrArg (fun f : Fin 10 → EReal => Finset.fold max ninf f Finset.univ)
    (funext fun k => congrArg (val_main_v68 (F := Ideal) x0 x1 x2 x3 x4 x5 x6 x7) (lift_ix h i k))

/-- The final entry (i, j): the normalised entry minus the maximum, minus the logarithm of the row's sum of exponentials
    of such differences. -/
theorem out_ix (x0 : (⟨S50000x64, .f32⟩ : BufTy).Contents (Elt Ideal)) (x1 : (⟨S2x1250000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S10x64, .f32⟩ : BufTy).Contents (Elt Ideal)) (x6 : (⟨S10, .f32⟩ : BufTy).Contents (Elt Ideal)) (x7 : (⟨S10x64, .f32⟩ : BufTy).Contents (Elt Ideal)) (i : Fin 50000) (j : Fin 10) :
    val_main_v69 (F := Ideal) x0 x1 x2 x3 x4 x5 x6 x7 (ix2 i j)
      = lsmR (max ninf (rowMax (fun j' : Fin 10 => val_main_v68 (F := Ideal) x0 x1 x2 x3 x4 x5 x6 x7 (ix2 i j'))))
          (fun j' : Fin 10 => val_main_v68 (F := Ideal) x0 x1 x2 x3 x4 x5 x6 x7 (ix2 i j')) j := by
  have hshift (j' : Fin 10) : val_main_call3_v5 (F := Ideal) x0 x1 x2 x3 x4 x5 x6 x7 (ix2 i j')
      = val_main_v68 (F := Ideal) x0 x1 x2 x3 x4 x5 x6 x7 (ix2 i j')
          - max ninf (rowMax (fun j'' : Fin 10 => val_main_v68 (F := Ideal) x0 x1 x2 x3 x4 x5 x6 x7 (ix2 i j''))) := by
    rw [val_main_call3_v5_apply, val_main_call3_v4_apply, val_main_call3_v3_apply, Ideal.subf_def]
    have e : idx_main_call3_v3 (idx_main_call3_v4 (ix2 i j')) = ix1 i :=
      funext fun a => Fin.ext (by match a with | ⟨0, _⟩ => rfl)
    rw [e, max_ix]
  have hsum : val_main_call3_v7 (F := Ideal) x0 x1 x2 x3 x4 x5 x6 x7 (ix1 i)
      = ∑ k : Fin 10, Ideal.exp (val_main_call3_v5 (F := Ideal) x0 x1 x2 x3 x4 x5 x6 x7 (ix2 i k)) := by
    rw [val_main_call3_v7_apply, val_main_call3_cst_1_apply, Ideal.ofBits_def, Ideal.ofBits_zero_f32, zero_add]
    refine Finset.sum_congr rfl fun k _ => ?_
    rw [val_main_call3_v6_apply, Ideal.hostUnary_exp_def]
    have e : idx_main_call3_v7 (ix1 i) k = ix2 i k :=
      funext fun a => Fin.ext (by match a with | ⟨0, _⟩ => rfl | ⟨1, _⟩ => rfl)
    rw [e]
  rw [val_main_v69_apply, val_main_call3_v10_apply, val_main_call3_v9_apply, val_main_call3_v8_apply, Ideal.subf_def,
    Ideal.hostUnary_log_def]
  have e : idx_main_call3_v8 (idx_main_call3_v10 (ix2 i j)) = ix1 i :=
    funext fun a => Fin.ext (by match a with | ⟨0, _⟩ => rfl)
  rw [e, hsum, hshift]
  unfold lsmR
  simp only [hshift]

end Cert.ReferenceIdeal.RefLayer2

end
-- ==== Proof.AlgebraPre.lean ====
/-
  The two arrangements of a row entry before normalisation agree: multiplying by the reciprocal `1 / c` of a
  nonzero count is dividing by the count (both are a product with `c⁻¹`), and the bias may be added before or
  after the second product because addition of extended reals is commutative and associative. Nothing here
  needs the entries to be finite.
-/
import proofs.«107454_j31894427140226_2_alg».proof.Proof.Spec

noncomputable section

open scoped BigOperators

namespace Cert.Sage

open Idealize.ShloMosaic Idealize.ShloMosaic.ValueIdx

variable {n : ℕ}

/-- For `c ≠ 0`: `a · (1 / c) = a · (1 · c⁻¹) = a · c⁻¹ = a / c`. -/
theorem mul_div_one (a c : EReal) (hc : c ≠ 0) : a * Ideal.div 1 c = Ideal.div a c := by
  simp only [Ideal.div, if_neg hc, one_mul]

theorem preK_eq_preR (agg : (⟨2, ![50000, 64]⟩ : Shape).Idx → EReal) (inv : (⟨2, ![50000, 1]⟩ : Shape).Idx → EReal)
    (cnt : (⟨1, ![50000]⟩ : Shape).Idx → EReal)
    (x : (⟨2, ![50000, 64]⟩ : Shape).Idx → EReal) (wl wr : (⟨2, ![64, n]⟩ : Shape).Idx → EReal)
    (b : (⟨2, ![1, n]⟩ : Shape).Idx → EReal) (b' : (⟨1, ![n]⟩ : Shape).Idx → EReal)
    (i : Fin 50000) (j : Fin n) (hinv : inv (ix2 i (0 : Fin 1)) = Ideal.div 1 (cnt (ix1 i)))
    (hc : cnt (ix1 i) ≠ 0) (hb : b (ix2 (0 : Fin 1) j) = b' (ix1 j)) :
    preK agg inv x wl wr b i j = preR agg cnt x wl wr b' i j := by
  unfold preK preR
  rw [hinv, hb]
  simp only [mul_div_one _ _ hc]
  -- (s + t) + u = (s + u) + t
  exact add_right_comm _ _ _

end Cert.Sage

end
-- ==== Proof.AlgebraNorm.lean ====
/-
  A row divided by its floored Euclidean norm is a row of reals, whatever the row: an infinite entry makes the
  sum of squares, its root and the floored norm all `⊤`, and anything over `⊤` is `0`; a row of reals has a real
  sum of squares `≥ 0`, a real root `≥ 0`, a real floored norm `≥ eps > 0`, and a real quotient.
-/
import proofs.«107454_j31894427140226_2_alg».proof.Proof.AlgebraConsts

noncomputable section

open scoped BigOperators

namespace Cert.Sage

open Idealize.ShloMosaic Idealize.ShloMosaic.ValueIdx

variable {n : ℕ}

/-- The embedding of the reals is monotone, so it commutes with `max`. -/
theorem coe_max_real (a b : ℝ) : max (a : EReal) (b : EReal) = ((max a b : ℝ) : EReal) :=
  (EReal.coe_strictMono.monotone.map_max).symm

/-- The embedding of the reals commutes with finite sums. -/
theorem coe_sum_real {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A square is nonnegative: `⊥ · ⊥ = ⊤ · ⊤ = ⊤`, and a real square is `≥ 0`. -/
theorem mul_self_nonneg_ereal (a : EReal) : 0 ≤ a * a := by
  induction a using EReal.rec with
  | bot => rw [EReal.bot_mul_bot]; exact le_top
  | top => rw [EReal.top_mul_top]; exact le_top
  | coe r => rw [← EReal.coe_mul]; exact EReal.coe_nonneg.2 (mul_self_nonneg r)

/-- The square of an infinite extended real is `⊤`. -/
theorem mul_self_eq_top (a : EReal) (ha : ∀ r : ℝ, a ≠ (r : EReal)) : a * a = ⊤ := by
  induction a using EReal.rec with
  | bot => exact EReal.bot_mul_bot
  | top => exact EReal.top_mul_top
  | coe r => exact absurd rfl (ha r)

theorem nrm_real (y : Fin n → EReal) (j : Fin n) : ∃ r : ℝ, nrm y j = (r : EReal) := by
  obtain ⟨e, he, heq⟩ := eps_pos
  unfold nrm
  rw [heq]
  by_cases h : ∀ k, ∃ r : ℝ, y k = (r : EReal)
  · -- every entry real: the quotient is `r j / max (√(Σ r k²)) e`, with a positive denominator
    choose r hr using h
    have hy : y = fun k => (r k : EReal) := funext hr
    subst hy
    have hs : 0 ≤ ∑ k : Fin n, r k * r k := Finset.sum_nonneg (fun k _ => mul_self_nonneg (r k))
    have hd : 0 < max (Real.sqrt (∑ k : Fin n, r k * r k)) e := lt_max_of_lt_right he
    refine ⟨r j * (max (Real.sqrt (∑ k : Fin n, r k * r k)) e)⁻¹, ?_⟩
    simp only [← EReal.coe_mul]
    rw [coe_sum_real, Ideal.sqrt_coe, if_neg (not_lt.2 hs), coe_max_real, Ideal.div,
      if_neg (fun h0 => hd.ne' (EReal.coe_eq_zero.1 h0)), ← EReal.coe_inv, ← EReal.coe_mul]
  · -- some entry infinite: its square `⊤` is a term of a sum of nonnegative terms, so the sum is `⊤`
    obtain ⟨k0, hk0⟩ := not_forall.1 h
    have hle : y k0 * y k0 ≤ ∑ k : Fin n, y k * y k :=
      Finset.single_le_sum (f := fun k => y k * y k) (fun i _ => mul_self_nonneg_ereal (y i)) (Finset.mem_univ k0)
    rw [mul_self_eq_top _ (fun r hr => hk0 ⟨r, hr⟩)] at hle
    refine ⟨0, ?_⟩
    rw [top_le_iff.1 hle, Ideal.sqrt_top, max_eq_left le_top, Ideal.div, if_neg EReal.top_ne_zero,
      EReal.inv_top, mul_zero, EReal.coe_zero]

/-- Clamping a real at zero from below leaves a real. -/
theorem max_zero_real (a : EReal) (h : ∃ r : ℝ, a = (r : EReal)) : ∃ r : ℝ, max a 0 = (r : EReal) := by
  obtain ⟨r, rfl⟩ := h
  exact ⟨max r 0, by rw [← EReal.coe_zero, coe_max_real]⟩

end Cert.Sage

end
-- ==== Proof.AlgebraLsm.lean ====
/-
  The maximum of a nonempty row of reals is real, and the two ways of subtracting the logarithm of the sum of
  exponentials agree on such a row: with `m` real, `a − (L + m) = (a − m) − L` for every extended real `L`,
  because `−(L + m) = −L − m` as soon as `L` and `m` are not opposite infinities.
-/
import proofs.«107454_j31894427140226_2_alg».proof.Proof.AlgebraConsts

noncomputable section

open scoped BigOperators

namespace Cert.Sage

open Idealize.ShloMosaic Idealize.ShloMosaic.ValueIdx

variable {n : ℕ}

/-- The running maximum from `⊥` over a nonempty row of reals is below `⊤` (every entry and the start are) and
    above `⊥` (the first entry is), hence real. -/
theorem rowMax_real (hn : 0 < n) (z : Fin n → EReal) (hz : ∀ k, ∃ r : ℝ, z k = (r : EReal)) :
    ∃ r : ℝ, rowMax z = (r : EReal) := by
  have hne_top : rowMax z ≠ ⊤ := by
    apply ne_of_lt
    unfold rowMax
    rw [Finset.fold_max_lt, ninf_eq]
    refine ⟨bot_lt_top, fun k _ => ?_⟩
    obtain ⟨r, hr⟩ := hz k
    rw [hr]; exact EReal.coe_lt_top r
  have hne_bot : rowMax z ≠ ⊥ := by
    apply ne_of_gt
    unfold rowMax
    rw [Finset.lt_fold_max]
    refine Or.inr ⟨⟨0, hn⟩, Finset.mem_univ _, ?_⟩
    obtain ⟨r, hr⟩ := hz ⟨0, hn⟩
    rw [hr]; exact EReal.bot_lt_coe r
  exact ⟨(rowMax z).toReal, (EReal.coe_toReal hne_top hne_bot).symm⟩

theorem lsmK_eq_lsmR (hn : 0 < n) (z : Fin n → EReal) (hz : ∀ k, ∃ r : ℝ, z k = (r : EReal)) (j : Fin n) :
    lsmK z j = lsmR (max ninf (rowMax z)) z j := by
  obtain ⟨m, hm⟩ := rowMax_real hn z hz
  -- `max ⊥ m = m`
  have hmax : max ninf (rowMax z) = rowMax z := by rw [ninf_eq]; exact max_eq_right bot_le
  unfold lsmK lsmR
  rw [hmax, hm]
  generalize Ideal.log (∑ k : Fin n, Ideal.exp (z k - (m : EReal))) = L
  -- `a + −(L + m) = a + (−L + −m) = a + (−m + −L) = (a + −m) + −L`
  rw [sub_eq_add_neg, sub_eq_add_neg, sub_eq_add_neg,
    EReal.neg_add (Or.inr (EReal.coe_ne_top m)) (Or.inr (EReal.coe_ne_bot m)), sub_eq_add_neg,
    add_comm (-L) (-(m : EReal)), add_assoc]

end Cert.Sage

end
-- ==== Proof.BridgeMath.lean ====
/-
  The two layers agree, array by array.

  With the neighbour sums, the floored neighbour count and the transposed weights shared, the first arrangement of a
  layer (neighbour sum times the reciprocal count, bias added last) and the second (neighbour sum over the count, bias
  added before the second product) give the same pre-normalisation row: the count is at least one, so it is not zero
  and multiplying by its reciprocal is dividing by it, and the three summands only change places. Hence the first
  layer's outputs are one array. The second layer then sees equal inputs, so its normalised rows agree; every entry
  of a normalised row is a real number whatever the inputs, so the row maximum is real and subtracting
  `log Σ exp (z − m) + m` in one step equals subtracting `m` and then the logarithm.
-/
import proofs.«107454_j31894427140226_2_alg».proof.Proof.KInv
import proofs.«107454_j31894427140226_2_alg».proof.Proof.RefL2
import proofs.«107454_j31894427140226_2_alg».proof.Proof.AlgebraPre
import proofs.«107454_j31894427140226_2_alg».proof.Proof.AlgebraNorm
import proofs.«107454_j31894427140226_2_alg».proof.Proof.AlgebraLsm

noncomputable section

open scoped BigOperators

namespace Cert.KernelIdeal.KValue

open Cert.KernelIdeal Cert.KernelIdeal.Gen Idealize.ShloMosaic Idealize.ShloMosaic.ValueIdx Cert.Sage

/-- A node's floored neighbour count is not zero. -/
theorem cnt_ne_zero (x1 : (⟨S2x1250000, .i32⟩ : BufTy).Contents (Elt Ideal)) (i : Fin 50000) : Cert.ReferenceIdeal.ReadP.val_main_v19 (F := Ideal) x1 (ix1 i) ≠ 0 := by
  rw [Cert.ReferenceIdeal.ReadP.val_main_v19_apply, Cert.ReferenceIdeal.ReadP.val_main_v18_apply, Cert.ReferenceIdeal.ReadP.val_main_cst_3_apply]
  exact max_one_ne_zero _

/-- The first layer's output in the first arrangement, over the host's arrays, is the reference's first-layer output. -/
theorem layer1_eq (x0 : (⟨S50000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) :
    arr1K (Cert.ReferenceIdeal.ReadP.val_main_v13 (F := Ideal) x0 x1) (invK x1) x0 (Cert.ReferenceIdeal.ReadP.val_main_v23 (F := Ideal) x2)
        (Cert.ReferenceIdeal.ReadP.val_main_v28 (F := Ideal) x4) (shapeCast S1x64 x3 shapeCasts_S64_S1x64)
      = Cert.ReferenceIdeal.ReadP.val_main_v36 (F := Ideal) x0 x1 x2 x3 x4 := by
  funext idx
  obtain ⟨i, j, rfl⟩ : ∃ (i : Fin 50000) (j : Fin 64), idx = ix2 i j := ⟨idx 0, idx 1, eq_ix2 idx⟩
  rw [arr1K_ix2, Cert.ReferenceIdeal.RefLayer1.out_ix]
  unfold layer1K
  have hrow : preK (Cert.ReferenceIdeal.ReadP.val_main_v13 (F := Ideal) x0 x1) (invK x1) x0 (Cert.ReferenceIdeal.ReadP.val_main_v23 (F := Ideal) x2)
        (Cert.ReferenceIdeal.ReadP.val_main_v28 (F := Ideal) x4) (shapeCast S1x64 x3 shapeCasts_S64_S1x64) i
      = preR (Cert.ReferenceIdeal.ReadP.val_main_v13 (F := Ideal) x0 x1) (Cert.ReferenceIdeal.ReadP.val_main_v19 (F := Ideal) x1) x0 (Cert.ReferenceIdeal.ReadP.val_main_v23 (F := Ideal) x2)
        (Cert.ReferenceIdeal.ReadP.val_main_v28 (F := Ideal) x4) x3 i :=
    funext fun j' => preK_eq_preR _ _ _ _ _ _ _ _ i j' (invK_ix x1 i) (cnt_ne_zero x1 i)
      (shapeCast_a_1a_apply x3 shapeCasts_S64_S1x64 (0 : Fin 1) j')
  rw [hrow]

/-- The second layer's output in the first arrangement, over the host's arrays and the first layer's output, is the
    reference's result. -/
theorem layer2_eq (x0 : (⟨S50000x64, .f32⟩ : BufTy).Contents (Elt Ideal)) (x1 : (⟨S2x1250000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S10x64, .f32⟩ : BufTy).Contents (Elt Ideal))
    (x6 : (⟨S10, .f32⟩ : BufTy).Contents (Elt Ideal)) (x7 : (⟨S10x64, .f32⟩ : BufTy).Contents (Elt Ideal)) :
    arr2K (Cert.ReferenceIdeal.ReadP.val_main_v13 (F := Ideal) (Cert.ReferenceIdeal.ReadP.val_main_v36 (F := Ideal) x0 x1 x2 x3 x4) x1) (invK x1)
        (Cert.ReferenceIdeal.ReadP.val_main_v36 (F := Ideal) x0 x1 x2 x3 x4) (Cert.ReferenceIdeal.ReadP.val_main_v56 (F := Ideal) x5)
        (Cert.ReferenceIdeal.ReadP.val_main_v61 (F := Ideal) x7) (shapeCast S1x10 x6 shapeCasts_S10_S1x10)
      = Cert.ReferenceIdeal.ReadP.val_main_v69 (F := Ideal) x0 x1 x2 x3 x4 x5 x6 x7 := by
  funext idx
  obtain ⟨i, j, rfl⟩ : ∃ (i : Fin 50000) (j : Fin 10), idx = ix2 i j := ⟨idx 0, idx 1, eq_ix2 idx⟩
  rw [arr2K_ix2, Cert.ReferenceIdeal.RefLayer2.out_ix]
  unfold layer2K
  have hrow : preK (Cert.ReferenceIdeal.ReadP.val_main_v13 (F := Ideal) (Cert.ReferenceIdeal.ReadP.val_main_v36 (F := Ideal) x0 x1 x2 x3 x4) x1) (invK x1)
        (Cert.ReferenceIdeal.ReadP.val_main_v36 (F := Ideal) x0 x1 x2 x3 x4) (Cert.ReferenceIdeal.ReadP.val_main_v56 (F := Ideal) x5)
        (Cert.ReferenceIdeal.ReadP.val_main_v61 (F := Ideal) x7) (shapeCast S1x10 x6 shapeCasts_S10_S1x10) i
      = fun j' : Fin 10 => Cert.ReferenceIdeal.ReadP.val_main_v63 (F := Ideal) x0 x1 x2 x3 x4 x5 x6 x7 (ix2 i j') :=
    funext fun j' => by
      rw [Cert.ReferenceIdeal.RefLayer2.pre_ix, Cert.ReferenceIdeal.RefLayer2.agg2_eq, Cert.ReferenceIdeal.RefLayer2.cnt2_eq]
      exact preK_eq_preR _ _ _ _ _ _ _ _ i j' (invK_ix x1 i) (cnt_ne_zero x1 i)
        (shapeCast_a_1a_apply x6 shapeCasts_S10_S1x10 (0 : Fin 1) j')
  have hz : (fun j' : Fin 10 => Cert.ReferenceIdeal.ReadP.val_main_v68 (F := Ideal) x0 x1 x2 x3 x4 x5 x6 x7 (ix2 i j'))
      = nrm (preK (Cert.ReferenceIdeal.ReadP.val_main_v13 (F := Ideal) (Cert.ReferenceIdeal.ReadP.val_main_v36 (F := Ideal) x0 x1 x2 x3 x4) x1) (invK x1)
        (Cert.ReferenceIdeal.ReadP.val_main_v36 (F := Ideal) x0 x1 x2 x3 x4) (Cert.ReferenceIdeal.ReadP.val_main_v56 (F := Ideal) x5)
        (Cert.ReferenceIdeal.ReadP.val_main_v61 (F := Ideal) x7) (shapeCast S1x10 x6 shapeCasts_S10_S1x10) i) :=
    funext fun j' => by rw [Cert.ReferenceIdeal.RefLayer2.nrm_ix, hrow]
  rw [hz]
  exact lsmK_eq_lsmR (by decide) _ (fun k => nrm_real _ k) j

end Cert.KernelIdeal.KValue

end
-- ==== Proof.RefRun.lean ====
/-
  The reference's run, read back as one function of its arguments.

  The reference is a straight line of 108 array operations. Three of its arrays are each read several times by what
  follows: the first layer's output (by the second layer's gather and by its second product), the second layer's
  pre-normalisation array (three times by the normalisation) and its normalised array (four times by the logarithm of
  the softmax). Read in four stretches cut after those arrays, the line names each of them once: the final array is
  the last stage of the arguments, and every argument array ends as it started.
-/
import proofs.«107454_j31894427140226_2_alg».proof.Proof.RefRunP
import proofs.«107454_j31894427140226_2_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The contents after two lines run one after the other: the second line's fold over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

set_option maxRecDepth 8192 in
set_option maxHeartbeats 4000000 in
/-- The result array after all 108 operations is the last stage of the arguments. The line is read in four stretches,
    cut where an array is about to be read more than once: the first leaves the first layer's output, the two index
    vectors and the untouched second-layer arguments; the second the second layer's pre-normalisation array; the third
    its normalised array; the fourth the logarithm of the softmax. Each stretch is read over the previous one's
    arrays by name. -/
theorem result_eq (m : (ℓ : Loc nD τ sig) → Buf (Elt F) ℓ) (c : Dev nD) :
    after (ops (F := F)) (launchContents m c) (Proc.devRef .tc main_v69)
      = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, after_append, after_append, after_append]
  have h36 : after (ops1 (F := F)) (launchContents m c) (Proc.devRef .tc main_v36)
      = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    after_results_simp <;> rfl
  have h1 : after (ops1 (F := F)) (launchContents m c) (Proc.devRef .tc main_v1)
      = val_main_v1 (F := F) (m ((c.tc : Thread nD τ).loc main_arg1)) := by
    after_results_simp <;> rfl
  have h3 : after (ops1 (F := F)) (launchContents m c) (Proc.devRef .tc main_v3)
      = val_main_v3 (F := F) (m ((c.tc : Thread nD τ).loc main_arg1)) := by
    after_results_simp <;> rfl
  have h5 : after (ops1 (F := F)) (launchContents m c) (Proc.devRef .tc main_arg5) = m ((c.tc : Thread nD τ).loc main_arg5) := by
    after_results_simp <;> rfl
  have h6 : after (ops1 (F := F)) (launchContents m c) (Proc.devRef .tc main_arg6) = m ((c.tc : Thread nD τ).loc main_arg6) := by
    after_results_simp <;> rfl
  have h7 : after (ops1 (F := F)) (launchContents m c) (Proc.devRef .tc main_arg7) = m ((c.tc : Thread nD τ).loc main_arg7) := by
    after_results_simp <;> rfl
  generalize after (ops1 (F := F)) (launchContents m c) = W1 at h36 h1 h3 h5 h6 h7 ⊢
  have h63 : after (ops2 (F := F)) W1 (Proc.devRef .tc main_v63)
      = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    after_results_simp
    rw [h36, h1, h3, h5, h6, h7]
    rfl
  generalize after (ops2 (F := F)) W1 = W2 at h63 ⊢
  have h68 : after (ops3 (F := F)) W2 (Proc.devRef .tc main_v68)
      = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    after_results_simp
    rw [h63]
    rfl
  generalize after (ops3 (F := F)) W2 = W3 at h68 ⊢
  after_results_simp
  rw [h68]
  -- each stage of the outlined logarithm-of-softmax is carried to its buffer's type and back: the identity
  simp only [TRef.toBuf, TRef.ofBuf, cast_cast, cast_eq]
  rfl

set_option maxRecDepth 8192 in
set_option maxHeartbeats 4000000 in
/-- On every device, for any float values, from any memory with zero counters: every weakly fair execution of the
    reference terminates with its result array at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v69).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.Bridge.lean ====
/-
  The idealized kernel's result is the reference's.

  The first region writes, row by row, the first layer in the arrangement that multiplies by the reciprocal count;
  over the arrays the host hands it, that array is the reference's first-layer output. The second region is entered
  with the neighbour sums of that array, the same reciprocal-count column and the second layer's weights, and writes
  the second layer with the logarithm of the softmax; that array is the reference's result. So both programs, run
  from memories that agree on the arguments, end with equal results, entry by entry, as extended reals; each
  terminates without a fault and leaves its arguments as they were. Nothing here uses that the inputs are finite:
  dividing a row by its floored norm makes every entry real whatever the inputs.
-/
import proofs.«107454_j31894427140226_2_alg».proof.Defs
import proofs.«107454_j31894427140226_2_alg».proof.Proof.Gen.Kernel.Frame
import proofs.«107454_j31894427140226_2_alg».proof.Proof.Gen.Pre_finite_inputs
import proofs.«107454_j31894427140226_2_alg».proof.Proof.KRun
import proofs.«107454_j31894427140226_2_alg».proof.Proof.KHost2
import proofs.«107454_j31894427140226_2_alg».proof.Proof.Region0Blk
import proofs.«107454_j31894427140226_2_alg».proof.Proof.Region1Final
import proofs.«107454_j31894427140226_2_alg».proof.Proof.BridgeMath
import proofs.«107454_j31894427140226_2_alg».proof.Proof.RefRun

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx Cert.Sage

variable (m : (ℓ : Loc nD τ sig) → Buf (Elt Ideal) ℓ) (ρ : Dev nD → PrngReg) (c : Dev nD)

/-- The first region's output array is the reference's first-layer output of the arguments. -/
theorem W2_out : (W2 m ρ c (Proc.devRef .tc main_v28) : S50000x64.Idx → EReal)
    = Cert.ReferenceIdeal.ReadP.val_main_v36 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine ((W2_arr m ρ c 6).trans (Cert.KernelIdeal.Region0.final0 (V1 m ρ) c)).trans ?_
  rw [V1_agg, V1_inv, V1_x, V1_wl, V1_wr, V1_b]
  exact layer1_eq _ _ _ _ _

/-- The second region's output array — the program's result — is the reference's result of the arguments. -/
theorem W4_out : (W4 m ρ c (Proc.devRef .tc main_v44) : S50000x10.Idx → EReal)
    = Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine ((W4_arr m ρ c 6).trans (Cert.KernelIdeal.Region1.final1 (V3 m ρ) c)).trans ?_
  rw [V3_agg, V3_inv, V3_x, V3_wl, V3_wr, V3_b, W2_out]
  exact layer2_eq _ _ _ _ _ _ _ _

/-- Every weakly fair execution of the idealized kernel terminates, nothing faulting, with its result array at the
    reference's result of the arguments and every argument array as launched. -/
theorem run : θ_run defs (onTc (τ := τ) (main (F := Ideal))) ⟨m, fun _ => 0, ρ⟩ (fun r => ∀ c : Dev nD,
      r.2.mem ((c.tc : Thread nD τ).loc main_v44) = Cert.ReferenceIdeal.ReadP.val_main_v69 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (W4_out m ρ c), (h c).2⟩) (run_value m ρ)

end Cert.KernelIdeal.KValue

/-! ## The claims -/

namespace Cert.Proof.Claims

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

/-- No operation was rewritten when the kernel was idealized: nothing to preserve. -/
theorem preserves : Cert.preserves_Kernel_KernelIdeal := trivial

/-- Both programs end at the reference's result of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

end Cert.Proof.Claims

end
-- ==== Proof.lean ====
/-
  Two mean-aggregating graph-convolution layers, the second followed by the logarithm of the softmax, as a tiled
  kernel (each layer one region over blocks of 5000 nodes, the neighbour sums gathered and accumulated on the host) and
  as plain array operations. Over the extended reals the two compute one function of the arguments: the neighbour
  sums, the floored neighbour counts and the transposed weights are the same on both sides; multiplying by the
  reciprocal of a count that is at least one is dividing by it; the bias and the two products are added in another
  order; and since a row divided by its floored norm has only real entries, subtracting `log Σ exp (z − m) + m` in one
  step is subtracting the maximum `m` and then the logarithm. The three programs terminate without a fault and leave
  their arguments unchanged; no operation was rewritten when the kernel was idealized.
-/
import proofs.«107454_j31894427140226_2_alg».proof.Defs
import proofs.«107454_j31894427140226_2_alg».proof.Proof.Gen.Kernel
import proofs.«107454_j31894427140226_2_alg».proof.Proof.Gen.Kernel.Skeleton
import proofs.«107454_j31894427140226_2_alg».proof.Proof.Gen.Kernel.Launch
import proofs.«107454_j31894427140226_2_alg».proof.Proof.Gen.Kernel.Points
import proofs.«107454_j31894427140226_2_alg».proof.Proof.Gen.Kernel.Frame
import proofs.«107454_j31894427140226_2_alg».proof.Proof.Gen.KernelIdeal
import proofs.«107454_j31894427140226_2_alg».proof.Proof.Gen.KernelIdeal.Skeleton
import proofs.«107454_j31894427140226_2_alg».proof.Proof.Gen.KernelIdeal.Launch
import proofs.«107454_j31894427140226_2_alg».proof.Proof.Gen.KernelIdeal.Points
import proofs.«107454_j31894427140226_2_alg».proof.Proof.Gen.KernelIdeal.Frame
import proofs.«107454_j31894427140226_2_alg».proof.Proof.Gen.ReferenceIdeal
import proofs.«107454_j31894427140226_2_alg».proof.Proof.Gen.Pre_finite_inputs
import proofs.«107454_j31894427140226_2_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
